-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x196x768 : Shape := ⟨3, ![32, 196, 768]⟩
abbrev S1000x10x768 : Shape := ⟨3, ![1000, 10, 768]⟩
abbrev S1000x10 : Shape := ⟨2, ![1000, 10]⟩
abbrev S1000 : Shape := ⟨1, ![1000]⟩
abbrev S_ : Shape := ⟨0, ![]⟩

class Facts : Prop where
  bcast_S_S32x196x768 : S_.BroadcastsInDim S32x196x768 (![] : Fin 0 → Fin S32x196x768.rank)
  reducesTo_S32x196x768_S_d0_1_2 : S32x196x768.ReducesTo [0, 1, 2] S_
  h_S_ : 0 < S_.numel
  bcast_S_S1000x10x768 : S_.BroadcastsInDim S1000x10x768 (![] : Fin 0 → Fin S1000x10x768.rank)
  reducesTo_S1000x10x768_S_d0_1_2 : S1000x10x768.ReducesTo [0, 1, 2] S_
  bcast_S_S1000x10 : S_.BroadcastsInDim S1000x10 (![] : Fin 0 → Fin S1000x10.rank)
  reducesTo_S1000x10_S_d0_1 : S1000x10.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  main_v18

def fn {F : FTy → Type} [FloatOps F] (main_arg0 : FVec F S32x196x768 .f32) (main_arg1 : FVec F S1000x10x768 .f32) (main_arg2 : FVec F S1000x10 .f32) (main_arg3 : FVec F S1000 .f32) : IVec S_ 1 :=
  let main_v0 : FVec F S32x196x768 .f32 := Host.absf main_arg0
  let main_cst : FVec F S_ .f32 := constant S_ .f32 0x7F800000#32
  let main_v1 : FVec F S32x196x768 .f32 := broadcastInDim S32x196x768 ![] bcast_S_S32x196x768 main_cst
  let main_v2 : IVec S32x196x768 1 := cmpf .olt main_v0 main_v1
  let main_c : IVec S_ 1 := constantI S_ 1 1#1
  let main_v3 : IVec S_ 1 := (fun x v => Host.reduce IntOp.andi x v reducesTo_S32x196x768_S_d0_1_2 h_S_) main_v2 main_c
  let main_v4 : FVec F S1000x10x768 .f32 := Host.absf main_arg1
  let main_cst_0 : FVec F S_ .f32 := constant S_ .f32 0x7F800000#32
  let main_v5 : FVec F S1000x10x768 .f32 := broadcastInDim S1000x10x768 ![] bcast_S_S1000x10x768 main_cst_0
  let main_v6 : IVec S1000x10x768 1 := cmpf .olt main_v4 main_v5
  let main_c_1 : IVec S_ 1 := constantI S_ 1 1#1
  let main_v7 : IVec S_ 1 := (fun x v => Host.reduce IntOp.andi x v reducesTo_S1000x10x768_S_d0_1_2 h_S_) main_v6 main_c_1
  let main_v8 : IVec S_ 1 := andi main_v3 main_v7
  let main_v9 : FVec F S1000x10 .f32 := Host.absf main_arg2
  let main_cst_2 : FVec F S_ .f32 := constant S_ .f32 0x7F800000#32
  let main_v10 : FVec F S1000x10 .f32 := broadcastInDim S1000x10 ![] bcast_S_S1000x10 main_cst_2
  let main_v11 : IVec S1000x10 1 := cmpf .olt main_v9 main_v10
  let main_c_3 : IVec S_ 1 := constantI S_ 1 1#1
  let main_v12 : IVec S_ 1 := (fun x v => Host.reduce IntOp.andi x v reducesTo_S1000x10_S_d0_1 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_v13 main_v16
-- ==== Kernel.lean ====
abbrev S32x196x768 : Shape := ⟨3, ![32, 196, 768]⟩
abbrev S1000x10x768 : Shape := ⟨3, ![1000, 10, 768]⟩
abbrev S1000x10 : Shape := ⟨2, ![1000, 10]⟩
abbrev S1000 : Shape := ⟨1, ![1000]⟩
abbrev S_ : Shape := ⟨0, ![]⟩
abbrev S1024x10x768 : Shape := ⟨3, ![1024, 10, 768]⟩
abbrev S1024x10 : Shape := ⟨2, ![1024, 10]⟩
abbrev S1024 : Shape := ⟨1, ![1024]⟩
abbrev S32x1024 : Shape := ⟨2, ![32, 1024]⟩
abbrev S8x196x768 : Shape := ⟨3, ![8, 196, 768]⟩
abbrev S128x10x768 : Shape := ⟨3, ![128, 10, 768]⟩
abbrev S128x10 : Shape := ⟨2, ![128, 10]⟩
abbrev S128 : Shape := ⟨1, ![128]⟩
abbrev S8x128 : Shape := ⟨2, ![8, 128]⟩
abbrev S8x196 : Shape := ⟨2, ![8, 196]⟩
abbrev S8x196x1 : Shape := ⟨3, ![8, 196, 1]⟩
abbrev S128x10x1 : Shape := ⟨3, ![128, 10, 1]⟩
abbrev S1280x768 : Shape := ⟨2, ![1280, 768]⟩
abbrev S1x196x768 : Shape := ⟨3, ![1, 196, 768]⟩
abbrev S196x768 : Shape := ⟨2, ![196, 768]⟩
abbrev S196x1280 : Shape := ⟨2, ![196, 1280]⟩
abbrev S1280 : Shape := ⟨1, ![1280]⟩
abbrev S1x128 : Shape := ⟨2, ![1, 128]⟩
abbrev S32x1000 : Shape := ⟨2, ![32, 1000]⟩

abbrev nBuf : Space → Nat
  | .hbm => 15
  | .vmem => 10
  | .smem => 0
  | _ => 0

abbrev bufTy : (tb : Table) → Fin (tcTables nBuf tb) → BufTy
  | .hbm, ⟨0, _⟩ => ⟨S32x196x768, .f32⟩
  | .hbm, ⟨1, _⟩ => ⟨S1000x10x768, .f32⟩
  | .hbm, ⟨2, _⟩ => ⟨S1000x10, .f32⟩
  | .hbm, ⟨3, _⟩ => ⟨S1000, .f32⟩
  | .hbm, ⟨4, _⟩ => ⟨S_, .i32⟩
  | .hbm, ⟨5, _⟩ => ⟨S_, .f32⟩
  | .hbm, ⟨6, _⟩ => ⟨S1024x10x768, .f32⟩
  | .hbm, ⟨7, _⟩ => ⟨S_, .i32⟩
  | .hbm, ⟨8, _⟩ => ⟨S_, .f32⟩
  | .hbm, ⟨9, _⟩ => ⟨S1024x10, .f32⟩
  | .hbm, ⟨10, _⟩ => ⟨S_, .i32⟩
  | .hbm, ⟨11, _⟩ => ⟨S_, .f32⟩
  | .hbm, ⟨12, _⟩ => ⟨S1024, .f32⟩
  | .hbm, ⟨13, _⟩ => ⟨S32x1024, .f32⟩
  | .hbm, ⟨14, _⟩ => ⟨S32x1000, .f32⟩
  | .local _ .vmem, ⟨0, _⟩ => ⟨S8x196x768, .f32⟩
  | .local _ .vmem, ⟨1, _⟩ => ⟨S8x196x768, .f32⟩
  | .local _ .vmem, ⟨2, _⟩ => ⟨S128x10x768, .f32⟩
  | .local _ .vmem, ⟨3, _⟩ => ⟨S128x10x768, .f32⟩
  | .local _ .vmem, ⟨4, _⟩ => ⟨S128x10, .f32⟩
  | .local _ .vmem, ⟨5, _⟩ => ⟨S128x10, .f32⟩
  | .local _ .vmem, ⟨6, _⟩ => ⟨S128, .f32⟩
  | .local _ .vmem, ⟨7, _⟩ => ⟨S128, .f32⟩
  | .local _ .vmem, ⟨8, _⟩ => ⟨S8x128, .f32⟩
  | .local _ .vmem, ⟨9, _⟩ => ⟨S8x128, .f32⟩
  | _, _ => ⟨S32x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x10x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  pads_S1000x10x768_S1024x10x768_0240_000_000 : S1000x10x768.Pads (![0, 0, 0] : Fin 3 → Nat) ![24, 0, 0] ![0, 0, 0] S1024x10x768
  h_S_ : 0 < S_.numel
  pads_S1000x10_S1024x10_0240_000 : S1000x10.Pads (![0, 0] : Fin 2 → Nat) ![24, 0] ![0, 0] S1024x10
  pads_S1000_S1024_0240 : S1000.Pads (![0] : Fin 1 → Nat) ![24] ![0] S1024
  inb_S8x196x768_S8x196x768_0_0_0 : ∀ a, (![0, 0, 0] : Fin 3 → Nat) a + S8x196x768.size a ≤ S8x196x768.size a
  h_S8x196x768 : 0 < S8x196x768.numel
  reduces_S8x196x768_S8x196 : S8x196x768.Reduces [2] S8x196
  shapeCasts_S8x196_S8x196x1 : S8x196.ShapeCasts S8x196x1
  broadcasts_S8x196x1_S8x196x768 : S8x196x1.Broadcasts S8x196x768
  bitsLt_bf16_f32 : FTy.bits .bf16 < FTy.bits .f32
  inb_S128x10x768_S128x10x768_0_0_0 : ∀ a, (![0, 0, 0] : Fin 3 → Nat) a + S128x10x768.size a ≤ S128x10x768.size a
  h_S128x10x768 : 0 < S128x10x768.numel
  shapeCasts_S128x10x768_S128x10x768 : S128x10x768.ShapeCasts S128x10x768
  reduces_S128x10x768_S128x10 : S128x10x768.Reduces [2] S128x10
  shapeCasts_S128x10_S128x10x1 : S128x10.ShapeCasts S128x10x1
  broadcasts_S128x10x1_S128x10x768 : S128x10x1.Broadcasts S128x10x768
  shapeCasts_S128x10x768_S1280x768 : S128x10x768.ShapeCasts S1280x768
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S128_S128_0 : ∀ a, (![0] : Fin 1 → Nat) a + S128.size a ≤ S128.size a
  h_S128 : 0 < S128.numel
  shapeCasts_S128_S128 : S128.ShapeCasts S128
  slices_S8x196x768_o0_0_0_S1x196x768 : S8x196x768.Slices ![0, 0, 0] S1x196x768
  shapeCasts_S1x196x768_S196x768 : S1x196x768.ShapeCasts S196x768
  reduces_S196x1280_S1280 : S196x1280.Reduces [0] S1280
  shapeCasts_S1280_S128x10 : S1280.ShapeCasts S128x10
  reduces_S128x10_S128 : S128x10.Reduces [1] S128
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S1x128 : S128.ShapeCasts S1x128
  slices_S8x196x768_o1_0_0_S1x196x768 : S8x196x768.Slices ![1, 0, 0] S1x196x768
  inb_S8x128_S1x128_1_0 : ∀ a, (![1, 0] : Fin 2 → Nat) a + S1x128.size a ≤ S8x128.size a
  slices_S8x196x768_o2_0_0_S1x196x768 : S8x196x768.Slices ![2, 0, 0] S1x196x768
  inb_S8x128_S1x128_2_0 : ∀ a, (![2, 0] : Fin 2 → Nat) a + S1x128.size a ≤ S8x128.size a
  slices_S8x196x768_o3_0_0_S1x196x768 : S8x196x768.Slices ![3, 0, 0] S1x196x768
  inb_S8x128_S1x128_3_0 : ∀ a, (![3, 0] : Fin 2 → Nat) a + S1x128.size a ≤ S8x128.size a
  slices_S8x196x768_o4_0_0_S1x196x768 : S8x196x768.Slices ![4, 0, 0] S1x196x768
  inb_S8x128_S1x128_4_0 : ∀ a, (![4, 0] : Fin 2 → Nat) a + S1x128.size a ≤ S8x128.size a
  slices_S8x196x768_o5_0_0_S1x196x768 : S8x196x768.Slices ![5, 0, 0] S1x196x768
  inb_S8x128_S1x128_5_0 : ∀ a, (![5, 0] : Fin 2 → Nat) a + S1x128.size a ≤ S8x128.size a
  slices_S8x196x768_o6_0_0_S1x196x768 : S8x196x768.Slices ![6, 0, 0] S1x196x768
  inb_S8x128_S1x128_6_0 : ∀ a, (![6, 0] : Fin 2 → Nat) a + S1x128.size a ≤ S8x128.size a
  slices_S8x196x768_o7_0_0_S1x196x768 : S8x196x768.Slices ![7, 0, 0] S1x196x768
  inb_S8x128_S1x128_7_0 : ∀ a, (![7, 0] : Fin 2 → Nat) a + S1x128.size a ≤ S8x128.size a
  slices_S32x1024_S32x1000_0_0 : S32x1024.Slices ![0, 0] S32x1000
  dot_S196x768_S1280x768_S196x1280_1_1_0_0_n_n_wf : DotDims.WF S196x768 S1280x768 S196x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x196x768.size a ≤ S32x196x768.size a
  hwx0_0 : ∀ i : grid0.Coords, EltTy.bits .f32 = 32 ∨ (Rect.block (s := S32x196x768) S8x196x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x10x768.size a ≤ S1024x10x768.size a
  hwx0_1 : ∀ i : grid0.Coords, EltTy.bits .f32 = 32 ∨ (Rect.block (s := S1024x10x768) S128x10x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x10.size a ≤ S1024x10.size a
  hwx0_2 : ∀ i : grid0.Coords, EltTy.bits .f32 = 32 ∨ (Rect.block (s := S1024x10) S128x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S1024.size a
  hwx0_3 : ∀ i : grid0.Coords, EltTy.bits .f32 = 32 ∨ (Rect.block (s := S1024) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S32x1024.size a
  hwx0_4 : ∀ i : grid0.Coords, EltTy.bits .f32 = 32 ∨ (Rect.block (s := S32x1024) S8x128.size (cc0_transform_4 i) (hinb0_4 i)).WholeWords (EltTy.packing .f32)

variable [Facts₀]

def dot_S196x768_S1280x768_S196x1280_1_1_0_0_n_n : DotDims S196x768 S1280x768 S196x1280 where
  lhsContracting := [1]
  rhsContracting := [1]
  lhsNonContracting := [0]
  rhsNonContracting := [0]
  lhsBatch := []
  rhsBatch := []
  wf := dot_S196x768_S1280x768_S196x1280_1_1_0_0_n_n_wf

abbrev win0_0 : Pipeline.Window sig grid0 :=
  Pipeline.Window.ofSpec (Memref.whole main_arg0) S8x196x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x10x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x196x768 : Shape := ⟨3, ![32, 196, 768]⟩
abbrev S1000x10x768 : Shape := ⟨3, ![1000, 10, 768]⟩
abbrev S1000x10 : Shape := ⟨2, ![1000, 10]⟩
abbrev S1000 : Shape := ⟨1, ![1000]⟩
abbrev S_ : Shape := ⟨0, ![]⟩
abbrev S32x196 : Shape := ⟨2, ![32, 196]⟩
abbrev S32x196x1 : Shape := ⟨3, ![32, 196, 1]⟩
abbrev S1000x10x1 : Shape := ⟨3, ![1000, 10, 1]⟩
abbrev S32x196x1000x10 : Shape := ⟨4, ![32, 196, 1000, 10]⟩
abbrev S32x1000x10 : Shape := ⟨3, ![32, 1000, 10]⟩
abbrev S1x1000x10 : Shape := ⟨3, ![1, 1000, 10]⟩
abbrev S32x1000 : Shape := ⟨2, ![32, 1000]⟩
abbrev S1x1000 : Shape := ⟨2, ![1, 1000]⟩

abbrev nBuf : Space → Nat
  | .hbm => 49
  | .vmem => 0
  | .smem => 0
  | _ => 0

abbrev bufTy : (tb : Table) → Fin (tcTables nBuf tb) → BufTy
  | .hbm, ⟨0, _⟩ => ⟨S32x196x768, .f32⟩
  | .hbm, ⟨1, _⟩ => ⟨S1000x10x768, .f32⟩
  | .hbm, ⟨2, _⟩ => ⟨S1000x10, .f32⟩
  | .hbm, ⟨3, _⟩ => ⟨S1000, .f32⟩
  | .hbm, ⟨4, _⟩ => ⟨S32x196x768, .f32⟩
  | .hbm, ⟨5, _⟩ => ⟨S_, .f32⟩
  | .hbm, ⟨6, _⟩ => ⟨S32x196, .f32⟩
  | .hbm, ⟨7, _⟩ => ⟨S32x196x1, .f32⟩
  | .hbm, ⟨8, _⟩ => ⟨S32x196x1, .f32⟩
  | .hbm, ⟨9, _⟩ => ⟨S_, .f32⟩
  | .hbm, ⟨10, _⟩ => ⟨S32x196x1, .f32⟩
  | .hbm, ⟨11, _⟩ => ⟨S32x196x1, .f32⟩
  | .hbm, ⟨12, _⟩ => ⟨S32x196x768, .f32⟩
  | .hbm, ⟨13, _⟩ => ⟨S32x196x768, .f32⟩
  | .hbm, ⟨14, _⟩ => ⟨S1000x10x768, .f32⟩
  | .hbm, ⟨15, _⟩ => ⟨S_, .f32⟩
  | .hbm, ⟨16, _⟩ => ⟨S1000x10, .f32⟩
  | .hbm, ⟨17, _⟩ => ⟨S1000x10x1, .f32⟩
  | .hbm, ⟨18, _⟩ => ⟨S1000x10x1, .f32⟩
  | .hbm, ⟨19, _⟩ => ⟨S_, .f32⟩
  | .hbm, ⟨20, _⟩ => ⟨S1000x10x1, .f32⟩
  | .hbm, ⟨21, _⟩ => ⟨S1000x10x1, .f32⟩
  | .hbm, ⟨22, _⟩ => ⟨S1000x10x768, .f32⟩
  | .hbm, ⟨23, _⟩ => ⟨S1000x10x768, .f32⟩
  | .hbm, ⟨24, _⟩ => ⟨S32x196x1000x10, .f32⟩
  | .hbm, ⟨25, _⟩ => ⟨S_, .f32⟩
  | .hbm, ⟨26, _⟩ => ⟨S32x1000x10, .f32⟩
  | .hbm, ⟨27, _⟩ => ⟨S_, .f32⟩
  | .hbm, ⟨28, _⟩ => ⟨S1000x10, .f32⟩
  | .hbm, ⟨29, _⟩ => ⟨S1000x10, .f32⟩
  | .hbm, ⟨30, _⟩ => ⟨S1000x10, .f32⟩
  | .hbm, ⟨31, _⟩ => ⟨S1000x10, .f32⟩
  | .hbm, ⟨32, _⟩ => ⟨S1000x10, .i1⟩
  | .hbm, ⟨33, _⟩ => ⟨S1000x10, .f32⟩
  | .hbm, ⟨34, _⟩ => ⟨S1000x10, .f32⟩
  | .hbm, ⟨35, _⟩ => ⟨S1000x10, .f32⟩
  | .hbm, ⟨36, _⟩ => ⟨S1000x10, .f32⟩
  | .hbm, ⟨37, _⟩ => ⟨S1000x10, .f32⟩
  | .hbm, ⟨38, _⟩ => ⟨S1000x10, .f32⟩
  | .hbm, ⟨39, _⟩ => ⟨S1000x10, .f32⟩
  | .hbm, ⟨40, _⟩ => ⟨S1000x10, .f32⟩
  | .hbm, ⟨41, _⟩ => ⟨S1x1000x10, .f32⟩
  | .hbm, ⟨42, _⟩ => ⟨S32x1000x10, .f32⟩
  | .hbm, ⟨43, _⟩ => ⟨S32x1000x10, .f32⟩
  | .hbm, ⟨44, _⟩ => ⟨S_, .f32⟩
  | .hbm, ⟨45, _⟩ => ⟨S32x1000, .f32⟩
  | .hbm, ⟨46, _⟩ => ⟨S1x1000, .f32⟩
  | .hbm, ⟨47, _⟩ => ⟨S32x1000, .f32⟩
  | .hbm, ⟨48, _⟩ => ⟨S32x1000, .f32⟩
  | _, _ => ⟨S32x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_call2_cst : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]

class Facts₀ : Prop where
  reducesTo_S32x196x768_S32x196_d2 : S32x196x768.ReducesTo [2] S32x196
  h_S_ : 0 < S_.numel
  bcast_S32x196_S32x196x1_0_1 : S32x196.BroadcastsInDim S32x196x1 (![0, 1] : Fin 2 → Fin S32x196x1.rank)
  bcast_S_S32x196x1 : S_.BroadcastsInDim S32x196x1 (![] : Fin 0 → Fin S32x196x1.rank)
  bcast_S32x196x1_S32x196x768_0_1_2 : S32x196x1.BroadcastsInDim S32x196x768 (![0, 1, 2] : Fin 3 → Fin S32x196x768.rank)
  reducesTo_S1000x10x768_S1000x10_d2 : S1000x10x768.ReducesTo [2] S1000x10
  bcast_S1000x10_S1000x10x1_0_1 : S1000x10.BroadcastsInDim S1000x10x1 (![0, 1] : Fin 2 → Fin S1000x10x1.rank)
  bcast_S_S1000x10x1 : S_.BroadcastsInDim S1000x10x1 (![] : Fin 0 → Fin S1000x10x1.rank)
  bcast_S1000x10x1_S1000x10x768_0_1_2 : S1000x10x1.BroadcastsInDim S1000x10x768 (![0, 1, 2] : Fin 3 → Fin S1000x10x768.rank)
  reducesTo_S32x196x1000x10_S32x1000x10_d1 : S32x196x1000x10.ReducesTo [1] S32x1000x10
  bcast_S_S1000x10 : S_.BroadcastsInDim S1000x10 (![] : Fin 0 → Fin S1000x10.rank)
  bcast_S1000x10_S1x1000x10_1_2 : S1000x10.BroadcastsInDim S1x1000x10 (![1, 2] : Fin 2 → Fin S1x1000x10.rank)
  bcast_S1x1000x10_S32x1000x10_0_1_2 : S1x1000x10.BroadcastsInDim S32x1000x10 (![0, 1, 2] : Fin 3 → Fin S32x1000x10.rank)
  reducesTo_S32x1000x10_S32x1000_d2 : S32x1000x10.ReducesTo [2] S32x1000
  bcast_S1000_S1x1000_1 : S1000.BroadcastsInDim S1x1000 (![1] : Fin 1 → Fin S1x1000.rank)
  bcast_S1x1000_S32x1000_0_1 : S1x1000.BroadcastsInDim S32x1000 (![0, 1] : Fin 2 → Fin S32x1000.rank)
  dot_S32x196x768_S1000x10x768_S32x196x1000x10_2_2_01_01_n_n_wf : DotDims.WF S32x196x768 S1000x10x768 S32x196x1000x10 [2] [2] [0, 1] [0, 1] [] []

variable [Facts₀]

def dot_S32x196x768_S1000x10x768_S32x196x1000x10_2_2_01_01_n_n : DotDims S32x196x768 S1000x10x768 S32x196x1000x10 where
  lhsContracting := [2]
  rhsContracting := [2]
  lhsNonContracting := [0, 1]
  rhsNonContracting := [0, 1]
  lhsBatch := []
  rhsBatch := []
  wf := dot_S32x196x768_S1000x10x768_S32x196x1000x10_2_2_01_01_n_n_wf

class Facts : Prop extends Facts₀ where

variable [Facts]
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«171508_j45268955299907_1_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibColMax.lean ====
/-
  General facts about maxima taken down the rows of an array, and a vector re-read as a matrix, at an index.

  * The maximum down the rows of an `M × N` array gives, at column `q`, the greatest of the column's entries and the
    starting value: the fold of `max` from the starting value over the `M` row coordinates (`colMax_apply`, and
    `colMax_f32` for a printed f32 reduction from the word of −∞).
  * A vector of `n = a·b` entries re-read as an `a × b` matrix keeps every entry's row-major position: entry `(i, j)`
    of the matrix is entry `i·b + j` of the vector (`vecSplit_apply`).
  * The host's reduction of an `A × B × C × D` array over its second axis with a commutative and associative operation
    gives, at `(a, c, d)`, the fold of the operation from the initial value over the `B` entries `(a, k, c, d)`
    (`hostFoldSecond_apply`).
-/
import Idealize.ShloMosaic.Lib.ValueIdx
import Idealize.ShloMosaic.Lib.Pipeline.Value
import Idealize.ShloMosaic.PureOps.Ideal.Laws

noncomputable section

open scoped BigOperators

namespace Cert.Lib.ColMax

open Idealize.ShloMosaic Idealize.ShloMosaic.ValueIdx

variable {M N : Nat}

/-- The column index `q` with row `k` put back is `(k, q)`. -/
theorem lift_row (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The maximum down the rows, at column `q`: the greatest of the column's entries and the starting value. -/
theorem colMax_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.maximumf.neutral φ hφ)
    (q : Fin N) :
    multiReduction .maximumf [0] ⟨1, ![N]⟩ src acc h hφ hacc (ix1 q)
      = (Finset.univ : Finset (Fin M)).fold max (Ideal.ofBits φ acc) fun k => src (ix2 k q) := by
  rw [Ideal.multiReduction_maximumf_single]
  have hf : (src ∘ h.lift (ix1 q)) = fun k : Fin M => src (ix2 k q) := funext fun (k : Fin M) => congrArg src (lift_row h q k)
  exact congrArg (fun f => Finset.fold max (Ideal.ofBits φ acc) f (Finset.univ : Finset (Fin M))) hf

/-- The maximum down the rows of an f32 array, from the word of −∞ (the accumulator hypothesis typed as a printed
    reduction carries it). -/
theorem colMax_f32 (src : FVec Ideal ⟨2, ![M, N]⟩ .f32) (h : (⟨2, ![M, N]⟩ : Shape).Reduces [0] ⟨1, ![N]⟩)
    (hφ : FKind.Formats .f32) (hacc : (0xFF800000#32 : BitVec 32) = 0xFF800000#32) (q : Fin N) :
    multiReduction .maximumf [0] ⟨1, ![N]⟩ src 0xFF800000#32 h hφ hacc (ix1 q)
      = (Finset.univ : Finset (Fin M)).fold max (Ideal.ofBits .f32 0xFF800000#32) fun k => src (ix2 k q) :=
  colMax_apply src _ h hφ hacc q

/-- A vector of `n` entries re-read as an `a × b` matrix: entry `(i, j)` is entry `k = i·b + j` of the vector. -/
theorem vecSplit_apply {α : Type} {a b n : ℕ} (v : (⟨1, ![n]⟩ : Shape).Idx → α)
    (h : (⟨1, ![n]⟩ : Shape).ShapeCasts ⟨2, ![a, b]⟩) (i : Fin a) (j : Fin b) (k : Fin n) (hk : k.val = i.val * b + j.val) :
    shapeCast ⟨2, ![a, b]⟩ v h (ix2 i j) = v (ix1 k) :=
  shapeCast_apply v h (ix2 i j) (ix1 k) (by
    rw [Shape.rowMajor_val_one, Shape.rowMajor_val_two]
    exact hk)

/-- With the second coordinate `k` put back, the reduced index `(a, c, d)` is `(a, k, c, d)`. -/
theorem lift_second {A B C D : Nat} (h : (⟨4, ![A, B, C, D]⟩ : Shape).Reduces [1] ⟨3, ![A, C, D]⟩)
    (a : Fin A) (c : Fin C) (d : Fin D) (k : Fin B) :
    h.lift (ix3 a c d) k = ix4 a k c d := by
  funext ax
  apply Fin.ext
  match ax with
  | ⟨0, _⟩ => rfl
  | ⟨1, _⟩ => rfl
  | ⟨2, _⟩ => rfl
  | ⟨3, _⟩ => rfl

/-- The host's reduction over the second axis of a rank-four array, with a commutative and associative operation, at
    `(a, c, d)`: the fold of the operation from the initial value over the entries `(a, k, c, d)`. -/
theorem hostFoldSecond_apply {α : Type} {A B C D : Nat} {u : Shape} (f : α → α → α) [Std.Commutative f] [Std.Associative f]
    (x : (⟨4, ![A, B, C, D]⟩ : Shape).Idx → α) (init : u.Idx → α)
    (h' : (⟨4, ![A, B, C, D]⟩ : Shape).ReducesTo [1] ⟨3, ![A, C, D]⟩) (h : (⟨4, ![A, B, C, D]⟩ : Shape).Reduces [1] ⟨3, ![A, C, D]⟩)
    (hu : 0 < u.numel) (a : Fin A) (c : Fin C) (d : Fin D) :
    Host.reduce f x init h' hu (ix3 a c d)
      = (Finset.univ : Finset (Fin B)).fold f (init (Shape.Idx.first hu)) fun k => x (ix4 a k c d) := by
  rw [Host.reduce_eq_fold_single f x init h' h hu]
  have hf : (x ∘ h.lift (ix3 a c d)) = fun k : Fin B => x (ix4 a k c d) :=
    funext fun (k : Fin B) => congrArg x (lift_second h a c d k)
  exact congrArg (fun g => Finset.fold f (init (Shape.Idx.first hu)) g (Finset.univ : Finset (Fin B))) hf

end Cert.Lib.ColMax

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.LibLeast.lean ====
/-
  General facts about reductions of an `M × N` array read at an index, at the ideal values.

  * Summing along the lanes gives, at row `p`, the sum of the row's `N` entries (`rowSum_apply`).
  * Taking the minimum along the lanes gives, at row `p`, the least of the row's entries and the starting value
    (`rowMin_apply`); along the rows, at column `q`, the least of the column's entries and the starting value
    (`colMin_apply`). The least value is the fold of `min` from the starting value over the axis's coordinates.
-/
import Idealize.ShloMosaic.Lib.ValueIdx
import Idealize.ShloMosaic.PureOps.Ideal.Laws

noncomputable section

open scoped BigOperators

namespace Cert.Lib.Least

open Idealize.ShloMosaic Idealize.ShloMosaic.ValueIdx

variable {M N : Nat}

/-- The row index `p` with lane `k` put back is `(p, k)`. -/
theorem lift_lane (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The column index `q` with row `k` put back is `(k, q)`. -/
theorem lift_row (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum along the lanes, at row `p`. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_lane h p k)

/-- The minimum along the lanes, at row `p`: the least of the row's entries and the starting value. -/
theorem rowMin_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.minimumf.neutral φ hφ)
    (p : Fin M) :
    multiReduction .minimumf [1] ⟨1, ![M]⟩ src acc h hφ hacc (ix1 p)
      = (Finset.univ : Finset (Fin N)).fold min (Ideal.ofBits φ acc) fun k => src (ix2 p k) := by
  rw [multiReduction_minimumf_eq_fold]
  refine (h.fold_filter_drop_single _ _ src (ix1 p)).trans ?_
  have hf : (src ∘ h.lift (ix1 p)) = fun k : Fin N => src (ix2 p k) := funext fun (k : Fin N) => congrArg src (lift_lane h p k)
  exact congrArg (fun f => Finset.fold min (Ideal.ofBits φ acc) f (Finset.univ : Finset (Fin N))) hf

/-- The minimum along the rows, at column `q`: the least of the column's entries and the starting value. -/
theorem colMin_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.minimumf.neutral φ hφ)
    (q : Fin N) :
    multiReduction .minimumf [0] ⟨1, ![N]⟩ src acc h hφ hacc (ix1 q)
      = (Finset.univ : Finset (Fin M)).fold min (Ideal.ofBits φ acc) fun k => src (ix2 k q) := by
  rw [multiReduction_minimumf_eq_fold]
  refine (h.fold_filter_drop_single _ _ src (ix1 q)).trans ?_
  have hf : (src ∘ h.lift (ix1 q)) = fun k : Fin M => src (ix2 k q) := funext fun (k : Fin M) => congrArg src (lift_row h q k)
  exact congrArg (fun f => Finset.fold min (Ideal.ofBits φ acc) f (Finset.univ : Finset (Fin M))) hf

/-! ## The same at f32, with the accumulator's word written out

A printed reduction carries its accumulator as a literal word and a proof that the word equals itself; these forms take
the proof with that type, so that they apply to a printed term as it stands. -/

/-- The sum along the lanes of an f32 array, from the zero word. -/
theorem rowSum_f32 (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) :=
  rowSum_apply src _ h hφ hacc p

/-- The sum down the rows of an `M × 1` f32 column, from the zero word. -/
theorem colSum_f32 (src : FVec Ideal ⟨2, ![M, 1]⟩ .f32) (h : (⟨2, ![M, 1]⟩ : Shape).Reduces [0] ⟨1, ![1]⟩)
    (hφ : FKind.Formats .f32) (hacc : (0x00000000#32 : BitVec 32) = 0x00000000#32) :
    multiReduction .add [0] ⟨1, ![1]⟩ src 0x00000000#32 h hφ hacc (ix1 (0 : Fin 1)) = ∑ k : Fin M, src (ix2 k (0 : Fin 1)) := by
  refine (Ideal.multiReduction_add_single src _ h hφ hacc (ix1 (0 : Fin 1))).trans ?_
  exact Finset.sum_congr rfl fun k _ => congrArg src (lift_row h (0 : Fin 1) k)

/-- The minimum along the lanes of an f32 array, from the word of +∞. -/
theorem rowMin_f32 (src : FVec Ideal ⟨2, ![M, N]⟩ .f32) (h : (⟨2, ![M, N]⟩ : Shape).Reduces [1] ⟨1, ![M]⟩)
    (hφ : FKind.Formats .f32) (hacc : (0x7F800000#32 : BitVec 32) = 0x7F800000#32) (p : Fin M) :
    multiReduction .minimumf [1] ⟨1, ![M]⟩ src 0x7F800000#32 h hφ hacc (ix1 p)
      = (Finset.univ : Finset (Fin N)).fold min (Ideal.ofBits .f32 0x7F800000#32) fun k => src (ix2 p k) :=
  rowMin_apply src _ h hφ hacc p

/-- The minimum down the rows of an f32 array, from the word of +∞. -/
theorem colMin_f32 (src : FVec Ideal ⟨2, ![M, N]⟩ .f32) (h : (⟨2, ![M, N]⟩ : Shape).Reduces [0] ⟨1, ![N]⟩)
    (hφ : FKind.Formats .f32) (hacc : (0x7F800000#32 : BitVec 32) = 0x7F800000#32) (q : Fin N) :
    multiReduction .minimumf [0] ⟨1, ![N]⟩ src 0x7F800000#32 h hφ hacc (ix1 q)
      = (Finset.univ : Finset (Fin M)).fold min (Ideal.ofBits .f32 0x7F800000#32) fun k => src (ix2 k q) :=
  colMin_apply src _ h hφ hacc q

end Cert.Lib.Least

end
-- ==== Proof.RowFn.lean ====
/-
  One row of scores, as the kernel's body computes it, read at a class.

  The body holds an image's 196 scaled feature rows `zb` (196 × 768), the block's 1280 scaled prototype rows `pf`
  (row `q·10 + j` is prototype `j` of class `q`), the softplus weights `w` (128 × 10) and the biases `β` (128).
  It multiplies `zb` by the transpose of `pf` into zero (196 × 1280 inner products), takes the maximum down the 196
  rows, re-reads the 1280 maxima as 128 × 10, multiplies by `w`, sums along the 10 lanes, adds `β` and stores the 128
  scores as a 1 × 128 row. At class `q` that is
      ∑ j, (max over l of ∑ d, zb (l, d) · pf (q·10 + j, d)) · w (q, j) + β q.
  All eight stores of the body are this one function of a slice of the scaled image block.
-/
import proofs.«171508_j45268955299907_1_alg».proof.Proof.Gen.KernelIdeal.Skeleton
import proofs.«171508_j45268955299907_1_alg».proof.Proof.LibBlockOps
import proofs.«171508_j45268955299907_1_alg».proof.Proof.LibColMax
import proofs.«171508_j45268955299907_1_alg».proof.Proof.LibRowForms
import proofs.«171508_j45268955299907_1_alg».proof.Proof.LibLeast

noncomputable section

open scoped BigOperators

namespace Cert.KernelIdeal.Row

open Cert.KernelIdeal Cert.KernelIdeal.Gen Idealize.ShloMosaic Idealize.ShloMosaic.ValueIdx

/-- Prototype row `j` of class `q` in the block's flattened 1280 rows. -/
def flat (q : Fin 128) (j : Fin 10) : Fin 1280 := ⟨q.val * 10 + j.val, by have := q.isLt; have := j.isLt; omega⟩

/-- One row of scores from an image's scaled rows, the scaled prototype rows, the weights and the biases. -/
def rowOut (zb : FVec Ideal S196x768 .bf16) (pf : FVec Ideal S1280x768 .bf16) (w : FVec Ideal S128x10 .f32)
    (β : FVec Ideal S128 .f32) : FVec Ideal S1x128 .f32 :=
  shapeCast S1x128
    (addf
      (multiReduction .add [1] S128
        (mulf
          (shapeCast S128x10
            (multiReduction .maximumf [0] S1280
              (matmul dot_S196x768_S1280x768_S196x1280_1_1_0_0_n_n none zb pf (constant S196x1280 .f32 0x00000000#32))
              0xFF800000#32 reduces_S196x1280_S1280 (.inl rfl) rfl)
            shapeCasts_S1280_S128x10)
          w)
        0x00000000#32 reduces_S128x10_S128 (.inl rfl) rfl)
      β)
    shapeCasts_S128_S1x128

/-- The row of scores at class `q`. -/
theorem rowOut_apply (zb : FVec Ideal S196x768 .bf16) (pf : FVec Ideal S1280x768 .bf16) (w : FVec Ideal S128x10 .f32)
    (β : FVec Ideal S128 .f32) (q : Fin 128) :
    rowOut zb pf w β (ix2 (0 : Fin 1) q)
      = (∑ j : Fin 10,
          ((Finset.univ : Finset (Fin 196)).fold max (Ideal.ofBits .f32 0xFF800000#32)
            fun l => ∑ d : Fin 768, zb (ix2 l d) * pf (ix2 (flat q j) d)) * w (ix2 q j)) + β (ix1 q) := by
  unfold rowOut
  rw [Cert.Lib.RowForms.vecRow_apply, addf_apply]
  refine congrArg (· + β (ix1 q)) ?_
  refine (Cert.Lib.Least.rowSum_f32 _ reduces_S128x10_S128 _ _ q).trans (Finset.sum_congr rfl fun j _ => ?_)
  rw [mulf_apply]
  refine congrArg (· * w (ix2 q j)) ?_
  refine (Cert.Lib.ColMax.vecSplit_apply _ shapeCasts_S1280_S128x10 q j (flat q j) rfl).trans ?_
  refine (Cert.Lib.ColMax.colMax_f32 _ reduces_S196x1280_S1280 _ _ (flat q j)).trans ?_
  refine congrArg (fun f => Finset.fold max (Ideal.ofBits .f32 0xFF800000#32) f (Finset.univ : Finset (Fin 196)))
    (funext fun l => ?_)
  exact Cert.Lib.BlockOps.matmul_rows_apply dot_S196x768_S1280x768_S196x1280_1_1_0_0_n_n_wf none zb pf l (flat q j)

/-! The body's eight stores are this function. -/

theorem pay7_eq (pf : FVec Ideal S1280x768 .bf16) (w : FVec Ideal S128x10 .f32) (β : FVec Ideal S128 .f32)
    (zb : FVec Ideal S196x768 .bf16) :
    k0_pay7 pf w β zb (constant S196x1280 .f32 0x00000000#32) = rowOut zb pf w β := rfl

/-- Image `b` of the scaled block, as a 196 × 768 matrix. -/
def img1 (z : FVec Ideal S8x196x768 .bf16) : FVec Ideal S196x768 .bf16 :=
  shapeCast S196x768 (extractStridedSlice S1x196x768 ![1, 0, 0] z slices_S8x196x768_o1_0_0_S1x196x768) shapeCasts_S1x196x768_S196x768
def img2 (z : FVec Ideal S8x196x768 .bf16) : FVec Ideal S196x768 .bf16 :=
  shapeCast S196x768 (extractStridedSlice S1x196x768 ![2, 0, 0] z slices_S8x196x768_o2_0_0_S1x196x768) shapeCasts_S1x196x768_S196x768
def img3 (z : FVec Ideal S8x196x768 .bf16) : FVec Ideal S196x768 .bf16 :=
  shapeCast S196x768 (extractStridedSlice S1x196x768 ![3, 0, 0] z slices_S8x196x768_o3_0_0_S1x196x768) shapeCasts_S1x196x768_S196x768
def img4 (z : FVec Ideal S8x196x768 .bf16) : FVec Ideal S196x768 .bf16 :=
  shapeCast S196x768 (extractStridedSlice S1x196x768 ![4, 0, 0] z slices_S8x196x768_o4_0_0_S1x196x768) shapeCasts_S1x196x768_S196x768
def img5 (z : FVec Ideal S8x196x768 .bf16) : FVec Ideal S196x768 .bf16 :=
  shapeCast S196x768 (extractStridedSlice S1x196x768 ![5, 0, 0] z slices_S8x196x768_o5_0_0_S1x196x768) shapeCasts_S1x196x768_S196x768
def img6 (z : FVec Ideal S8x196x768 .bf16) : FVec Ideal S196x768 .bf16 :=
  shapeCast S196x768 (extractStridedSlice S1x196x768 ![6, 0, 0] z slices_S8x196x768_o6_0_0_S1x196x768) shapeCasts_S1x196x768_S196x768
def img7 (z : FVec Ideal S8x196x768 .bf16) : FVec Ideal S196x768 .bf16 :=
  shapeCast S196x768 (extractStridedSlice S1x196x768 ![7, 0, 0] z slices_S8x196x768_o7_0_0_S1x196x768) shapeCasts_S1x196x768_S196x768

theorem pay8_eq (z : FVec Ideal S8x196x768 .bf16) (pf : FVec Ideal S1280x768 .bf16) (w : FVec Ideal S128x10 .f32)
    (β : FVec Ideal S128 .f32) : k0_pay8 z pf w β = rowOut (img1 z) pf w β := rfl
theorem pay9_eq (z : FVec Ideal S8x196x768 .bf16) (pf : FVec Ideal S1280x768 .bf16) (w : FVec Ideal S128x10 .f32)
    (β : FVec Ideal S128 .f32) : k0_pay9 z pf w β = rowOut (img2 z) pf w β := rfl
theorem pay11_eq (z : FVec Ideal S8x196x768 .bf16) (pf : FVec Ideal S1280x768 .bf16) (w : FVec Ideal S128x10 .f32)
    (β : FVec Ideal S128 .f32) : k0_pay11 (k0_pay10 z pf w β) = rowOut (img3 z) pf w β := rfl
theorem pay12_eq (z : FVec Ideal S8x196x768 .bf16) (pf : FVec Ideal S1280x768 .bf16) (w : FVec Ideal S128x10 .f32)
    (β : FVec Ideal S128 .f32) : k0_pay12 z pf w β = rowOut (img4 z) pf w β := rfl
theorem pay13_eq (z : FVec Ideal S8x196x768 .bf16) (pf : FVec Ideal S1280x768 .bf16) (w : FVec Ideal S128x10 .f32)
    (β : FVec Ideal S128 .f32) : k0_pay13 z pf w β = rowOut (img5 z) pf w β := rfl
theorem pay14_eq (z : FVec Ideal S8x196x768 .bf16) (pf : FVec Ideal S1280x768 .bf16) (w : FVec Ideal S128x10 .f32)
    (β : FVec Ideal S128 .f32) : k0_pay14 z pf w β = rowOut (img6 z) pf w β := rfl
theorem pay1_eq (z : FVec Ideal S8x196x768 .bf16) (pf : FVec Ideal S1280x768 .bf16) (w : FVec Ideal S128x10 .f32)
    (β : FVec Ideal S128 .f32) : k0_pay1 w β (k0_pay15 z pf) = rowOut (img7 z) pf w β := rfl

/-- Image `b` of a block read at `(l, d)`: the block at `(b, l, d)`. -/
theorem img_apply {α : Type} (o : Nat) (ho : o < 8) (z : S8x196x768.Idx → α) (hs : S8x196x768.Slices ![o, 0, 0] S1x196x768)
    (hc : S1x196x768.ShapeCasts S196x768) (l : Fin 196) (d : Fin 768) :
    shapeCast S196x768 (extractStridedSlice S1x196x768 ![o, 0, 0] z hs) hc (ix2 l d) = z (ix3 (⟨o, ho⟩ : Fin 8) l d) := by
  rw [Cert.Lib.RowForms.unslab_apply]
  refine extractStridedSlice_apply _ z hs _ (ix3 (⟨o, ho⟩ : Fin 8) l d) (fun a => ?_)
  match a with
  | ⟨0, _⟩ => show o = o + 0; omega
  | ⟨1, _⟩ => show l.val = 0 + l.val; omega
  | ⟨2, _⟩ => show d.val = 0 + d.val; omega

end Cert.KernelIdeal.Row

end
-- ==== Proof.LibCube.lean ====
/-
  Rank-three blocks read at an entry.

  A kernel that works on a batch of matrices keeps its per-row quantities as columns [A, B, 1] or rows
  [A, 1, B] and spreads them over [A, B, C] blocks; it sums a block along its last axis, or along its middle
  one; the host sums an [A, B, C] array over both trailing axes at once. Each lemma here reads one such
  operation at an entry named by its coordinates: the entry of the operand it is, or the finite sum over
  the coordinates of the summed axes, for any extents A, B, C.
-/
import Idealize.ShloMosaic.Lib.Pipeline.Value
import Idealize.ShloMosaic.Lib.ValueIdx
import Idealize.ShloMosaic.PureOps.Ideal.Laws

noncomputable section

namespace Cert.Lib.Cube

open Idealize.ShloMosaic Idealize.ShloMosaic.ValueIdx

variable {α : Type} {A B C : Nat}

/-! ## Casts between a matrix and a column or a row of it -/

/-- An [A, B] matrix viewed as [A, B, 1]: entry (r, p, 0) is entry (r, p). -/
theorem cast_col (v : (⟨2, ![A, B]⟩ : Shape).Idx → α) (h : (⟨2, ![A, B]⟩ : Shape).ShapeCasts ⟨3, ![A, B, 1]⟩)
    (r : Fin A) (p : Fin B) (z : Fin 1) : shapeCast ⟨3, ![A, B, 1]⟩ v h (ix3 r p z) = v (ix2 r p) :=
  shapeCast_apply v h (ix3 r p z) (ix2 r p) (by
    have hz : z.val = 0 := by have := z.isLt; omega
    rw [Shape.rowMajor_val_two, Shape.rowMajor_val_three]
    show r.val * B + p.val = (r.val * B + p.val) * 1 + z.val
    rw [hz, Nat.mul_one, Nat.add_zero])

/-- An [A, B] matrix viewed as [A, 1, B]: entry (r, 0, q) is entry (r, q). -/
theorem cast_row (v : (⟨2, ![A, B]⟩ : Shape).Idx → α) (h : (⟨2, ![A, B]⟩ : Shape).ShapeCasts ⟨3, ![A, 1, B]⟩)
    (r : Fin A) (z : Fin 1) (q : Fin B) : shapeCast ⟨3, ![A, 1, B]⟩ v h (ix3 r z q) = v (ix2 r q) :=
  shapeCast_apply v h (ix3 r z q) (ix2 r q) (by
    have hz : z.val = 0 := by have := z.isLt; omega
    rw [Shape.rowMajor_val_two, Shape.rowMajor_val_three]
    show r.val * B + q.val = (r.val * 1 + z.val) * B + q.val
    rw [hz, Nat.mul_one, Nat.add_zero])

/-- A [B, C] matrix viewed as [1, B, C]: entry (0, p, q) is entry (p, q). -/
theorem cast_slab (v : (⟨2, ![B, C]⟩ : Shape).Idx → α) (h : (⟨2, ![B, C]⟩ : Shape).ShapeCasts ⟨3, ![1, B, C]⟩)
    (z : Fin 1) (p : Fin B) (q : Fin C) : shapeCast ⟨3, ![1, B, C]⟩ v h (ix3 z p q) = v (ix2 p q) :=
  shapeCast_apply v h (ix3 z p q) (ix2 p q) (by
    have hz : z.val = 0 := by have := z.isLt; omega
    rw [Shape.rowMajor_val_two, Shape.rowMajor_val_three]
    show p.val * C + q.val = (z.val * B + p.val) * C + q.val
    rw [hz, Nat.zero_mul, Nat.zero_add])

/-- The transpose of the two trailing axes of a column [A, B, 1] is the row [A, 1, B]. -/
theorem transpose_col (v : (⟨3, ![A, B, 1]⟩ : Shape).Idx → α)
    (h : (⟨3, ![A, B, 1]⟩ : Shape).Transposes [0, 2, 1] ⟨3, ![A, 1, B]⟩) (r : Fin A) (z : Fin 1) (q : Fin B) :
    transpose ⟨3, ![A, 1, B]⟩ [0, 2, 1] v h (ix3 r z q) = v (ix3 r q z) :=
  transpose_apply [0, 2, 1] v h (ix3 r z q) (ix3 r q z) (fun b => match b with
    | ⟨0, _⟩ => rfl
    | ⟨1, _⟩ => rfl
    | ⟨2, _⟩ => rfl)

/-! ## Columns, rows and slabs spread over a block -/

/-- A column [A, B, 1] repeated along the last axis. -/
theorem spread_col (v : (⟨3, ![A, B, 1]⟩ : Shape).Idx → α) (h : (⟨3, ![A, B, 1]⟩ : Shape).Broadcasts ⟨3, ![A, B, C]⟩)
    (r : Fin A) (p : Fin B) (q : Fin C) : broadcastTo ⟨3, ![A, B, C]⟩ v h (ix3 r p q) = v (ix3 r p (0 : Fin 1)) :=
  broadcastTo_apply v h (ix3 r p q) (ix3 r p (0 : Fin 1)) (fun a => match a with
    | ⟨0, _⟩ => by
        show r.val = if A = 1 then 0 else r.val
        split
        · have := r.isLt; omega
        · rfl
    | ⟨1, _⟩ => by
        show p.val = if B = 1 then 0 else p.val
        split
        · have := p.isLt; omega
        · rfl
    | ⟨2, _⟩ => by show 0 = if (1 : Nat) = 1 then 0 else q.val; rw [if_pos rfl])

/-- A row [A, 1, C] repeated along the middle axis. -/
theorem spread_row (v : (⟨3, ![A, 1, C]⟩ : Shape).Idx → α) (h : (⟨3, ![A, 1, C]⟩ : Shape).Broadcasts ⟨3, ![A, B, C]⟩)
    (r : Fin A) (p : Fin B) (q : Fin C) : broadcastTo ⟨3, ![A, B, C]⟩ v h (ix3 r p q) = v (ix3 r (0 : Fin 1) q) :=
  broadcastTo_apply v h (ix3 r p q) (ix3 r (0 : Fin 1) q) (fun a => match a with
    | ⟨0, _⟩ => by
        show r.val = if A = 1 then 0 else r.val
        split
        · have := r.isLt; omega
        · rfl
    | ⟨1, _⟩ => by show 0 = if (1 : Nat) = 1 then 0 else p.val; rw [if_pos rfl]
    | ⟨2, _⟩ => by
        show q.val = if C = 1 then 0 else q.val
        split
        · have := q.isLt; omega
        · rfl)

/-- A slab [1, B, C] repeated along the leading axis. -/
theorem spread_slab (v : (⟨3, ![1, B, C]⟩ : Shape).Idx → α) (h : (⟨3, ![1, B, C]⟩ : Shape).Broadcasts ⟨3, ![A, B, C]⟩)
    (r : Fin A) (p : Fin B) (q : Fin C) : broadcastTo ⟨3, ![A, B, C]⟩ v h (ix3 r p q) = v (ix3 (0 : Fin 1) p q) :=
  broadcastTo_apply v h (ix3 r p q) (ix3 (0 : Fin 1) p q) (fun a => match a with
    | ⟨0, _⟩ => by show 0 = if (1 : Nat) = 1 then 0 else r.val; rw [if_pos rfl]
    | ⟨1, _⟩ => by
        show p.val = if B = 1 then 0 else p.val
        split
        · have := p.isLt; omega
        · rfl
    | ⟨2, _⟩ => by
        show q.val = if C = 1 then 0 else q.val
        split
        · have := q.isLt; omega
        · rfl)

/-- A column [A, 1] repeated along B lanes. -/
theorem spread_col2 (v : (⟨2, ![A, 1]⟩ : Shape).Idx → α) (h : (⟨2, ![A, 1]⟩ : Shape).Broadcasts ⟨2, ![A, B]⟩)
    (r : Fin A) (p : Fin B) : broadcastTo ⟨2, ![A, B]⟩ v h (ix2 r p) = v (ix2 r (0 : Fin 1)) :=
  broadcastTo_apply v h (ix2 r p) (ix2 r (0 : Fin 1)) (fun a => match a with
    | ⟨0, _⟩ => by
        show r.val = if A = 1 then 0 else r.val
        split
        · have := r.isLt; omega
        · rfl
    | ⟨1, _⟩ => by show 0 = if (1 : Nat) = 1 then 0 else p.val; rw [if_pos rfl])

/-! ## Lane numbers -/

/-- The lane number along the last axis of a matrix. -/
theorem iota_lane (κ : Kind) (h : (⟨2, ![A, B]⟩ : Shape).Iotas κ 32 [1]) (r : Fin A) (p : Fin B) :
    iota κ ⟨2, ![A, B]⟩ 32 [1] h (ix2 r p) = BitVec.ofNat 32 p.val :=
  iota_single_apply κ ⟨2, ![A, B]⟩ 32 1 h (ix2 r p)

/-- The row number of a matrix. -/
theorem iota_row (κ : Kind) (h : (⟨2, ![A, B]⟩ : Shape).Iotas κ 32 [0]) (r : Fin A) (p : Fin B) :
    iota κ ⟨2, ![A, B]⟩ 32 [0] h (ix2 r p) = BitVec.ofNat 32 r.val :=
  iota_single_apply κ ⟨2, ![A, B]⟩ 32 0 h (ix2 r p)

/-! ## Sums along an axis, on the extended reals -/

/-- The sum of an f32 block along its last axis, read at (r, p): the sum over q of the entries (r, p, q). -/
theorem sum_last (src : FVec Ideal ⟨3, ![A, B, C]⟩ .f32) (h : (⟨3, ![A, B, C]⟩ : Shape).Reduces [2] ⟨2, ![A, B]⟩)
    (hφ : FTy.f32 = FTy.f32 ∨ FTy.f32 = FTy.bf16) (hacc : (0x00000000#32 : BitVec 32) = 0x00000000#32) (r : Fin A) (p : Fin B) :
    multiReduction .add [2] ⟨2, ![A, B]⟩ src 0x00000000#32 h hφ hacc (ix2 r p) = ∑ q : Fin C, src (ix3 r p q) := by
  refine (Ideal.multiReduction_add_single src 0x00000000#32 h hφ hacc (ix2 r p)).trans ?_
  exact Finset.sum_congr rfl fun q _ => congrArg src (funext fun a => Fin.ext (by
    match a with
    | ⟨0, _⟩ => rfl
    | ⟨1, _⟩ => rfl
    | ⟨2, _⟩ => rfl))

/-- The sum of an f32 column block [A, B, 1] along its middle axis, read at (r, 0): the sum over p of the
    entries (r, p, 0). -/
theorem sum_mid (src : FVec Ideal ⟨3, ![A, B, 1]⟩ .f32) (h : (⟨3, ![A, B, 1]⟩ : Shape).Reduces [1] ⟨2, ![A, 1]⟩)
    (hφ : FTy.f32 = FTy.f32 ∨ FTy.f32 = FTy.bf16) (hacc : (0x00000000#32 : BitVec 32) = 0x00000000#32) (r : Fin A) (z : Fin 1) :
    multiReduction .add [1] ⟨2, ![A, 1]⟩ src 0x00000000#32 h hφ hacc (ix2 r z) = ∑ p : Fin B, src (ix3 r p z) := by
  refine (Ideal.multiReduction_add_single src 0x00000000#32 h hφ hacc (ix2 r z)).trans ?_
  exact Finset.sum_congr rfl fun p _ => congrArg src (funext fun a => Fin.ext (by
    match a with
    | ⟨0, _⟩ => rfl
    | ⟨1, _⟩ => rfl
    | ⟨2, _⟩ => rfl))

/-- The host's sum of an [A, B, C] array over both trailing axes, read at r: the initial value plus the
    double sum over (p, q) of the entries (r, p, q). -/
theorem host_sum_plane (h : (⟨3, ![A, B, C]⟩ : Shape).ReducesTo [1, 2] ⟨1, ![A]⟩)
    (x : (⟨3, ![A, B, C]⟩ : Shape).Idx → EReal) (init : EReal) (r : Fin A) :
    Ideal.hostReduceAdd h x init (ix1 r) = init + ∑ p : Fin B, ∑ q : Fin C, x (ix3 r p q) := by
  unfold Ideal.hostReduceAdd
  refine congrArg (init + ·) ?_
  rw [← Finset.sum_product']
  refine Finset.sum_nbij' (fun i => ((⟨(i 1).val, (i 1).isLt⟩ : Fin B), (⟨(i 2).val, (i 2).isLt⟩ : Fin C)))
    (fun pq => ix3 r pq.1 pq.2) (fun _ _ => Finset.mem_product.2 ⟨Finset.mem_univ _, Finset.mem_univ _⟩) ?_ ?_ ?_ ?_
  · intro pq _
    refine Finset.mem_filter.2 ⟨Finset.mem_univ _, ?_⟩
    funext b
    match b with
    | ⟨0, _⟩ => exact Fin.ext rfl
  · intro i hi
    have hd := congrFun (Finset.mem_filter.1 hi).2 (0 : Fin 1)
    have h0 : (i 0).val = r.val := congrArg Fin.val hd
    funext a
    match a with
    | ⟨0, _⟩ => exact Fin.ext h0.symm
    | ⟨1, _⟩ => exact Fin.ext rfl
    | ⟨2, _⟩ => exact Fin.ext rfl
  · intro pq _
    rfl
  · intro i hi
    have hd := congrFun (Finset.mem_filter.1 hi).2 (0 : Fin 1)
    have h0 : (i 0).val = r.val := congrArg Fin.val hd
    refine congrArg x (funext fun a => ?_)
    match a with
    | ⟨0, _⟩ => exact Fin.ext h0
    | ⟨1, _⟩ => exact Fin.ext rfl
    | ⟨2, _⟩ => exact Fin.ext rfl

end Cert.Lib.Cube

end
-- ==== Proof.LibReshape.lean ====
/-
  Row-major reshapes between ranks two, three and four, read at an index.

  A reshape keeps the row-major position of every entry. Merging the two leading axes of an `a × b × c` array
  gives an `(a·b) × c` array whose row `i·b + j` is the old `(i, j)`; splitting goes the other way; and a rank-four
  array re-read at rank three holds, at each index, the entry with the same row-major position.
-/
import Idealize.ShloMosaic.Lib.ValueIdx
import Idealize.ShloMosaic.Lib.Pipeline.Value

noncomputable section

namespace Cert.Lib.Reshape

open Idealize.ShloMosaic Idealize.ShloMosaic.ValueIdx

variable {α : Type}

/-- Merging the two leading axes: row `r = i·b + j`, column `k` of the result is the operand at `(i, j, k)`. -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the leading axis: entry `(i, j, k)` of the result is the operand at row `r = i·b + j`, column `k`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A rank-four array re-read at rank three: entry `(i, l, e)` of the result is the operand at the index
    `(i', h, p, d)` with the same row-major position. -/
theorem four_three_apply {a0 a1 a2 a3 b0 b1 b2 : ℕ} (x : (⟨4, ![a0, a1, a2, a3]⟩ : Shape).Idx → α)
    (hc : (⟨4, ![a0, a1, a2, a3]⟩ : Shape).ShapeCasts ⟨3, ![b0, b1, b2]⟩)
    (i : Fin b0) (l : Fin b1) (e : Fin b2) (i' : Fin a0) (h : Fin a1) (p : Fin a2) (d : Fin a3)
    (hpos : ((i'.val * a1 + h.val) * a2 + p.val) * a3 + d.val = (i.val * b1 + l.val) * b2 + e.val) :
    shapeCast ⟨3, ![b0, b1, b2]⟩ x hc (ix3 i l e) = x (ix4 i' h p d) :=
  shapeCast_apply x hc _ _ (by
    rw [Shape.rowMajor_val_four, Shape.rowMajor_val_three]
    exact hpos)

end Cert.Lib.Reshape

end
-- ==== Proof.Spec.lean ====
/-
  The prototypical head, entry by entry, on the extended reals.

  A feature row `f` (768 numbers) has length `‖f‖ = sqrt (∑ d, f d · f d)`; it is scaled to `f d / max ‖f‖ ε`, with
  `ε` the single-precision word of 1e-12. The similarity of two rows is the inner product of the two scaled rows. For
  one image (196 rows) and one prototype row the pooled similarity is the greatest of the 196 similarities (the fold of
  `max` from −∞). A class has 10 prototype rows, 10 raw weights and a bias; its score is the sum over the 10 rows of
  the pooled similarity times the softplus of the raw weight, plus the bias. The softplus is written
  `max r 0 + log1p (exp (0 − |r − 0|))`, behind a test `r − 0 ≠ r − 0` that never fires on the extended reals; writing
  `−|r − 0|` for `0 − |r − 0|` gives the same number.

  Nothing here needs the entries to be real numbers: both programs compute this same tree of operations, entry by entry.
-/
import Idealize.ShloMosaic.PureOps.Ideal
import Idealize.ShloMosaic.PureOps.Ideal.Laws

noncomputable section

open scoped BigOperators

namespace Cert.Head

open Idealize.ShloMosaic

/-- The floor under a row's length: the single-precision word of 1e-12. -/
def eps : EReal := Ideal.ofBits .f32 0x2B8CBCCC#32

/-- The zero word's value (it is `0`; kept as the word so that both programs' terms meet it as printed). -/
def zero : EReal := Ideal.ofBits .f32 0x00000000#32

/-- The divisor of a row: its length, or `ε` if that is greater. -/
def len (f : Fin 768 → EReal) : EReal := max (Ideal.sqrt (∑ d : Fin 768, f d * f d)) eps

/-- The scaled row. -/
def scaled (f : Fin 768 → EReal) (d : Fin 768) : EReal := Ideal.div (f d) (len f)

/-- The similarity of two rows: the inner product of the scaled rows. -/
def sim (f g : Fin 768 → EReal) : EReal := ∑ d : Fin 768, scaled f d * scaled g d

/-- The pooled similarity of an image's 196 rows with one prototype row: the greatest similarity. -/
def pooled (z : Fin 196 → Fin 768 → EReal) (g : Fin 768 → EReal) : EReal :=
  (Finset.univ : Finset (Fin 196)).fold max (Ideal.ofBits .f32 0xFF800000#32) fun l => sim (z l) g

/-- The softplus of a raw weight, as both programs spell it (the test in front never fires: no extended real differs
    from itself). -/
def softplus (r : EReal) : EReal :=
  Scalar.select (Ideal.cmp .one (r - zero) (r - zero)) (r + zero)
    (max r zero + Ideal.log1p (Ideal.exp (zero - FloatOps.absf (F := Ideal) (φ := .f32) (r - zero))))

/-- The same with the inner difference written as a negation. -/
theorem softplus_neg (r : EReal) :
    Scalar.select (Ideal.cmp .une (r - zero) (r - zero)) (r + zero)
      (max r zero + Ideal.log1p (Ideal.exp (-(FloatOps.absf (F := Ideal) (φ := .f32) (r - zero))))) = softplus r := by
  unfold softplus
  have hz : zero - FloatOps.absf (F := Ideal) (φ := .f32) (r - zero) = -(FloatOps.absf (F := Ideal) (φ := .f32) (r - zero)) := by
    unfold zero; rw [Ideal.ofBits_zero_f32, zero_sub]
  rw [hz]
  rfl

/-- One class's score for one image: the weighted sum of the pooled similarities, plus the bias. -/
def score (z : Fin 196 → Fin 768 → EReal) (p : Fin 10 → Fin 768 → EReal) (w : Fin 10 → EReal) (β : EReal) : EReal :=
  (∑ j : Fin 10, pooled z (p j) * softplus (w j)) + β

end Cert.Head

end
-- ==== Proof.Parts.lean ====
/-
  What the body makes of each input block before the rows are scored, read at an entry.

  * The image block (8 × 196 × 768) is scaled row by row: entry `(b, l, d)` becomes the `d`-th entry of the scaled
    feature row `(b, l)` — the row's sum of squares along the last axis, its square root, the floor `ε`, the division.
  * The prototype block (128 × 10 × 768) is scaled the same way and re-read as 1280 rows: row `q·10 + j` is the scaled
    prototype row `(q, j)`.
  * The raw weights (128 × 10) go through the softplus entry by entry; the biases are passed on as they are.
-/
import proofs.«171508_j45268955299907_1_alg».proof.Proof.Gen.KernelIdeal.Skeleton
import proofs.«171508_j45268955299907_1_alg».proof.Proof.LibCube
import proofs.«171508_j45268955299907_1_alg».proof.Proof.LibReshape
import proofs.«171508_j45268955299907_1_alg».proof.Proof.Spec
import proofs.«171508_j45268955299907_1_alg».proof.Proof.RowFn

noncomputable section

open scoped BigOperators

namespace Cert.KernelIdeal.Parts

open Cert.KernelIdeal Cert.KernelIdeal.Gen Idealize.ShloMosaic Idealize.ShloMosaic.ValueIdx
open Cert.KernelIdeal.Row (flat)

set_option maxHeartbeats 80000 in
/-- The scaled image block at `(b, l, d)`. -/
theorem pay2_apply (v0 : FVec Ideal S8x196x768 .f32) (b : Fin 8) (l : Fin 196) (d : Fin 768) :
    k0_pay2 (F := Ideal) v0 (ix3 b l d) = Cert.Head.scaled (fun d' => v0 (ix3 b l d')) d := by
  unfold k0_pay2
  simp only []
  rw [truncf_apply, divf_apply, Cert.Lib.Cube.spread_col, maximumf_apply]
  show Ideal.div (v0 (ix3 b l d)) (max (Ideal.sqrt (shapeCast S8x196x1 _ shapeCasts_S8x196_S8x196x1 (ix3 b l (0 : Fin 1)))) _) = _
  rw [Cert.Lib.Cube.cast_col, Cert.Lib.Cube.sum_last]
  simp only [Cert.Head.scaled, Cert.Head.len, Cert.Head.eps, mulf_apply, broadcast_apply]
  rfl

set_option maxHeartbeats 80000 in
/-- The scaled prototype rows at `(q·10 + j, d)`. -/
theorem pay3_apply (v10 : FVec Ideal S128x10x768 .f32) (q : Fin 128) (j : Fin 10) (d : Fin 768) :
    k0_pay3 (F := Ideal) v10 (ix2 (flat q j) d) = Cert.Head.scaled (fun d' => v10 (ix3 q j d')) d := by
  unfold k0_pay3
  simp only [shapeCast_self]
  rw [Cert.Lib.Reshape.merge_apply _ shapeCasts_S128x10x768_S1280x768 q j d (flat q j) rfl,
    truncf_apply, divf_apply, Cert.Lib.Cube.spread_col, maximumf_apply]
  show Ideal.div (v10 (ix3 q j d)) (max (Ideal.sqrt (shapeCast S128x10x1 _ shapeCasts_S128x10_S128x10x1 (ix3 q j (0 : Fin 1)))) _) = _
  rw [Cert.Lib.Cube.cast_col, Cert.Lib.Cube.sum_last]
  simp only [Cert.Head.scaled, Cert.Head.len, Cert.Head.eps, mulf_apply, broadcast_apply]
  rfl

set_option maxHeartbeats 80000 in
/-- The softplus weights at `(q, j)`. -/
theorem pay4_apply (v22 : FVec Ideal S128x10 .f32) (i : S128x10.Idx) :
    k0_pay4 (F := Ideal) v22 i = Cert.Head.softplus (v22 i) := by
  unfold k0_pay4
  simp only [shapeCast_self]
  rfl

/-- The biases are passed on. -/
theorem pay5_eq (v38 : FVec Ideal S128 .f32) : k0_pay5 (F := Ideal) v38 = v38 := by
  unfold k0_pay5
  simp only [shapeCast_self]

end Cert.KernelIdeal.Parts

end
-- ==== Proof.KernelBlock.lean ====
/-
  What the body leaves in the output block: a block of scores.

  The body's eight stores fill the eight rows of the 8 × 128 output block, row `b` with the scores of image `b` of the
  image block against the 128 classes of the prototype block. Entry `(b, q)` of the block is the score of class `q`'s
  prototype rows, weights and bias for image `b`'s feature rows: each store's payload is the row function of the
  scaled image slice `b`, and the pieces of the inputs are the scaled rows, the softplus weights and the biases.
-/
import proofs.«171508_j45268955299907_1_alg».proof.Proof.Gen.KernelIdeal.Frame
import proofs.«171508_j45268955299907_1_alg».proof.Proof.RowFn
import proofs.«171508_j45268955299907_1_alg».proof.Proof.Parts

set_option maxRecDepth 16384

noncomputable section

open scoped BigOperators

namespace Cert.KernelIdeal.Block

open Cert.KernelIdeal Cert.KernelIdeal.Gen Idealize.ShloMosaic Idealize.ShloMosaic.ValueIdx
open Cert.KernelIdeal.Row Cert.KernelIdeal.Parts

/-- The block of scores of an image block against a prototype block with its weights and biases. -/
def Gblk (x0 : FVec Ideal S8x196x768 .f32) (x1 : FVec Ideal S128x10x768 .f32) (x2 : FVec Ideal S128x10 .f32)
    (x3 : FVec Ideal S128 .f32) : S8x128.Idx → EReal :=
  fun y => Cert.Head.score (fun l d => x0 (ix3 (y 0) l d)) (fun j d => x1 (ix3 (y 1) j d)) (fun j => x2 (ix2 (y 1) j))
    (x3 (ix1 (y 1)))

/-- The row function of image `b`'s scaled rows, at class `q`, is the score. -/
theorem row_score (b : Fin 8) (x0 : FVec Ideal S8x196x768 .f32) (x1 : FVec Ideal S128x10x768 .f32)
    (x2 : FVec Ideal S128x10 .f32) (x3 : FVec Ideal S128 .f32) (zb : FVec Ideal S196x768 .bf16)
    (hz : ∀ l d, zb (ix2 l d) = k0_pay2 (F := Ideal) x0 (ix3 b l d)) (q : Fin 128) :
    rowOut zb (k0_pay3 x1) (k0_pay4 x2) (k0_pay5 x3) (ix2 (0 : Fin 1) q)
      = Cert.Head.score (fun l d => x0 (ix3 b l d)) (fun j d => x1 (ix3 q j d)) (fun j => x2 (ix2 q j)) (x3 (ix1 q)) := by
  rw [rowOut_apply, pay5_eq]
  unfold Cert.Head.score Cert.Head.pooled Cert.Head.sim
  refine congrArg (· + x3 (ix1 q)) (Finset.sum_congr rfl fun j _ => ?_)
  rw [pay4_apply]
  refine congrArg (· * Cert.Head.softplus (x2 (ix2 q j))) ?_
  refine congrArg (fun f => Finset.fold max (Ideal.ofBits .f32 0xFF800000#32) f (Finset.univ : Finset (Fin 196)))
    (funext fun l => ?_)
  refine Finset.sum_congr rfl fun d _ => ?_
  rw [hz, pay2_apply, pay3_apply]

/-- A store's payload at a local index is the block of scores at the index under it. -/
theorem piece_score (b : Fin 8) (x0 : FVec Ideal S8x196x768 .f32) (x1 : FVec Ideal S128x10x768 .f32)
    (x2 : FVec Ideal S128x10 .f32) (x3 : FVec Ideal S128 .f32) (zb : FVec Ideal S196x768 .bf16)
    (hz : ∀ l d, zb (ix2 l d) = k0_pay2 (F := Ideal) x0 (ix3 b l d)) (x : S1x128.Idx) (y : S8x128.Idx)
    (h0 : (y 0).val = b.val + 1 * (x 0).val) (h1 : (y 1).val = 0 + 1 * (x 1).val) :
    rowOut zb (k0_pay3 x1) (k0_pay4 x2) (k0_pay5 x3) x = Gblk x0 x1 x2 x3 y := by
  obtain ⟨z, q, rfl⟩ : ∃ (z : Fin 1) (q : Fin 128), x = ix2 z q := ⟨x 0, x 1, eq_ix2 x⟩
  obtain ⟨b', q', rfl⟩ : ∃ (b' : Fin 8) (q' : Fin 128), y = ix2 b' q' := ⟨y 0, y 1, eq_ix2 y⟩
  have hz0 : z.val = 0 := by have := z.isLt; omega
  have h0' : b'.val = b.val + 1 * z.val := h0
  have h1' : q'.val = 0 + 1 * q.val := h1
  have e0 : b' = b := Fin.ext (by omega)
  have e1 : q' = q := Fin.ext (by omega)
  have ez : z = (0 : Fin 1) := Fin.ext hz0
  subst e0 e1 ez
  exact row_score b' x0 x1 x2 x3 zb hz q'

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the output block is the block of scores of its input blocks. -/
theorem out_eq (x0 : FVec Ideal S8x196x768 .f32) (x1 : FVec Ideal S128x10x768 .f32) (x2 : FVec Ideal S128x10 .f32)
    (x3 : FVec Ideal S128 .f32) : out0_4 (F := Ideal) x0 x1 x2 x3 = Gblk x0 x1 x2 x3 := by
  funext y
  unfold out0_4
  simp only [View.ld_unit_zero (S := S8x196x768) hz3, View.ld_unit_zero (S := S128x10x768) hz3,
    View.ld_unit_zero (S := S128x10) hz2, View.ld_unit_zero (S := S128) hz1]
  refine View.canon_apply_of_pieces (Val := Elt Ideal) (Gblk x0 x1 x2 x3) _ ?_ y (cover0_4 _ _ _ _ _ _ _ _ y)
  intro p hp x
  simp only [List.mem_cons, List.mem_nil_iff, or_false] at hp
  rcases hp with rfl | rfl | rfl | rfl | rfl | rfl | rfl | rfl
  · exact (congrFun (pay1_eq (k0_pay2 x0) (k0_pay3 x1) (k0_pay4 x2) (k0_pay5 x3)) x).trans
      (piece_score ⟨7, by decide⟩ x0 x1 x2 x3 _ (fun l d => img_apply 7 (by decide) _ _ _ l d) x _ rfl rfl)
  · exact (congrFun (pay14_eq (k0_pay2 x0) (k0_pay3 x1) (k0_pay4 x2) (k0_pay5 x3)) x).trans
      (piece_score ⟨6, by decide⟩ x0 x1 x2 x3 _ (fun l d => img_apply 6 (by decide) _ _ _ l d) x _ rfl rfl)
  · exact (congrFun (pay13_eq (k0_pay2 x0) (k0_pay3 x1) (k0_pay4 x2) (k0_pay5 x3)) x).trans
      (piece_score ⟨5, by decide⟩ x0 x1 x2 x3 _ (fun l d => img_apply 5 (by decide) _ _ _ l d) x _ rfl rfl)
  · exact (congrFun (pay12_eq (k0_pay2 x0) (k0_pay3 x1) (k0_pay4 x2) (k0_pay5 x3)) x).trans
      (piece_score ⟨4, by decide⟩ x0 x1 x2 x3 _ (fun l d => img_apply 4 (by decide) _ _ _ l d) x _ rfl rfl)
  · exact (congrFun (pay11_eq (k0_pay2 x0) (k0_pay3 x1) (k0_pay4 x2) (k0_pay5 x3)) x).trans
      (piece_score ⟨3, by decide⟩ x0 x1 x2 x3 _ (fun l d => img_apply 3 (by decide) _ _ _ l d) x _ rfl rfl)
  · exact (congrFun (pay9_eq (k0_pay2 x0) (k0_pay3 x1) (k0_pay4 x2) (k0_pay5 x3)) x).trans
      (piece_score ⟨2, by decide⟩ x0 x1 x2 x3 _ (fun l d => img_apply 2 (by decide) _ _ _ l d) x _ rfl rfl)
  · exact (congrFun (pay8_eq (k0_pay2 x0) (k0_pay3 x1) (k0_pay4 x2) (k0_pay5 x3)) x).trans
      (piece_score ⟨1, by decide⟩ x0 x1 x2 x3 _ (fun l d => img_apply 1 (by decide) _ _ _ l d) x _ rfl rfl)
  · exact (congrFun (pay7_eq (k0_pay3 x1) (k0_pay4 x2) (k0_pay5 x3) (k0_pay6 x0)) x).trans
      (piece_score ⟨0, by decide⟩ x0 x1 x2 x3 _ (fun l d => img_apply 0 (by decide) _ _ _ l d) x _ rfl rfl)

end Cert.KernelIdeal.Block

end
-- ==== Proof.Blocks.lean ====
/-
  From blocks to the array: the padded score array.

  The grid has 4 × 8 points; point `(bi, ci)` reads images `8·bi … 8·bi + 7` and padded classes `128·ci … 128·ci + 127`
  and writes back the 8 × 128 block `(bi, ci)` of the 32 × 1024 output. What a point writes back is the block of
  scores of its input blocks, and an input block's entry is the array's entry at the block's offset plus the local
  index; so the point's write-back is block `(bi, ci)` of ONE function of the arrays the region finds: the score of
  every image against every padded class. The 32 blocks tile the output, so the output ends as that function.
-/
import proofs.«171508_j45268955299907_1_alg».proof.Proof.Gen.KernelIdeal.Frame
import proofs.«171508_j45268955299907_1_alg».proof.Proof.KernelBlock

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The scores of every image against every padded class. -/
def Gpad (X : S32x196x768.Idx → EReal) (Pp : S1024x10x768.Idx → EReal) (Wp : S1024x10.Idx → EReal)
    (Bp : S1024.Idx → EReal) : S32x1024.Idx → EReal :=
  fun i => Cert.Head.score (fun l d => X (ix3 (i 0) l d)) (fun j d => Pp (ix3 (i 1) j d)) (fun j => Wp (ix2 (i 1) j))
    (Bp (ix1 (i 1)))

/-- The printed index maps, decided over the grid: the image window moves with the output's first block coordinate,
    the prototype, weight and bias windows with its second, and the other block coordinates are zero. -/
theorem idx_facts : ∀ t : Fin cfg0.N,
    win0_0.index t (0 : Fin 3) = win0_4.index t (0 : Fin 2) ∧ win0_0.index t (1 : Fin 3) = 0 ∧ win0_0.index t (2 : Fin 3) = 0
    ∧ win0_1.index t (0 : Fin 3) = win0_4.index t (1 : Fin 2) ∧ win0_1.index t (1 : Fin 3) = 0 ∧ win0_1.index t (2 : Fin 3) = 0
    ∧ win0_2.index t (0 : Fin 2) = win0_4.index t (1 : Fin 2) ∧ win0_2.index t (1 : Fin 2) = 0
    ∧ win0_3.index t (0 : Fin 1) = win0_4.index t (1 : Fin 2)
    ∧ win0_4.index t (0 : Fin 2) ≤ 3 ∧ win0_4.index t (1 : Fin 2) ≤ 7 :=
  (by decide +kernel : ∀ t : Fin grid0.N, _)

/-- Every block of the output is some point's. -/
theorem idx_onto : ∀ (q0 : Fin 4) (q1 : Fin 8), ∃ t : Fin cfg0.N, win0_4.index t = ![q0.val + 0, q1.val + 0] :=
  (by decide +kernel : ∀ (q0 : Fin 4) (q1 : Fin 8), ∃ t : Fin grid0.N, win0_4.index t = ![q0.val + 0, q1.val + 0])

/-- What point `t` writes back is block `t` of the padded score array of the arrays the region finds. -/
theorem flushed_eq (c : Dev nD) (t : Fin cfg0.N) :
    (dats m 0 c).flushed 4 t
      = ((cfg0.win 4).blk t).view.read (Elt Ideal) (Gpad (V m c main_arg0) (V m c main_v0) (V m c main_v1) (V m c main_v2)) := by
  show (cfg0.win 4).cut (grid0.coords t) ((dats m 0 c).after 4 t) = _
  rw [after0_4, Cert.KernelIdeal.Block.out_eq]
  obtain ⟨e00, e01, e02, e10, e11, e12, e20, e21, e30, b0, b1⟩ := idx_facts t
  funext y
  obtain ⟨r, q, rfl⟩ : ∃ (r : Fin 8) (q : Fin 128), y = ix2 r q := ⟨y 0, y 1, eq_ix2 y⟩
  show Cert.Head.score (fun l d => iblk m c 0 t (ix3 r l d)) (fun j d => iblk m c 1 t (ix3 q j d))
      (fun j => iblk m c 2 t (ix2 q j)) (iblk m c 3 t (ix1 q))
    = Gpad (V m c main_arg0) (V m c main_v0) (V m c main_v1) (V m c main_v2) (((cfg0.win 4).blk t).view.emb (ix2 r q))
  unfold Gpad
  have h0 : ∀ (l : Fin 196) (d : Fin 768), iblk m c 0 t (ix3 r l d)
      = V m c main_arg0 (ix3 ((((cfg0.win 4).blk t).view.emb (ix2 r q)) 0) l d) := fun l d => by
    show V m c main_arg0 (((cfg0.win 0).blk t).view.emb (ix3 r l d)) = _
    refine congrArg (V m c main_arg0) (funext fun a => Fin.ext ?_)
    match a with
    | ⟨0, _⟩ => show win0_0.index t (0 : Fin 3) * 8 + 1 * r.val = win0_4.index t (0 : Fin 2) * 8 + 1 * r.val; omega
    | ⟨1, _⟩ => show win0_0.index t (1 : Fin 3) * 196 + 1 * l.val = l.val; omega
    | ⟨2, _⟩ => show win0_0.index t (2 : Fin 3) * 768 + 1 * d.val = d.val; omega
  have h1 : ∀ (j : Fin 10) (d : Fin 768), iblk m c 1 t (ix3 q j d)
      = V m c main_v0 (ix3 ((((cfg0.win 4).blk t).view.emb (ix2 r q)) 1) j d) := fun j d => by
    show V m c main_v0 (((cfg0.win 1).blk t).view.emb (ix3 q j d)) = _
    refine congrArg (V m c main_v0) (funext fun a => Fin.ext ?_)
    match a with
    | ⟨0, _⟩ => show win0_1.index t (0 : Fin 3) * 128 + 1 * q.val = win0_4.index t (1 : Fin 2) * 128 + 1 * q.val; omega
    | ⟨1, _⟩ => show win0_1.index t (1 : Fin 3) * 10 + 1 * j.val = j.val; omega
    | ⟨2, _⟩ => show win0_1.index t (2 : Fin 3) * 768 + 1 * d.val = d.val; omega
  have h2 : ∀ (j : Fin 10), iblk m c 2 t (ix2 q j)
      = V m c main_v1 (ix2 ((((cfg0.win 4).blk t).view.emb (ix2 r q)) 1) j) := fun j => by
    show V m c main_v1 (((cfg0.win 2).blk t).view.emb (ix2 q j)) = _
    refine congrArg (V m c main_v1) (funext fun a => Fin.ext ?_)
    match a with
    | ⟨0, _⟩ => show win0_2.index t (0 : Fin 2) * 128 + 1 * q.val = win0_4.index t (1 : Fin 2) * 128 + 1 * q.val; omega
    | ⟨1, _⟩ => show win0_2.index t (1 : Fin 2) * 10 + 1 * j.val = j.val; omega
  have h3 : iblk m c 3 t (ix1 q) = V m c main_v2 (ix1 ((((cfg0.win 4).blk t).view.emb (ix2 r q)) 1)) := by
    show V m c main_v2 (((cfg0.win 3).blk t).view.emb (ix1 q)) = _
    refine congrArg (V m c main_v2) (funext fun a => Fin.ext ?_)
    match a with
    | ⟨0, _⟩ => show win0_3.index t (0 : Fin 1) * 128 + 1 * q.val = win0_4.index t (1 : Fin 2) * 128 + 1 * q.val; omega
  simp only [h0, h1, h2, h3]

/-- An index of the output is in point `t`'s block iff each coordinate is in the block's range on its axis. -/
theorem mem_blk (t : Fin cfg0.N) (i : S32x1024.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v3).slice (win0_4.rect t)).set ↔ _
  rw [View.set_slice_whole, Rect.mem_set_unit]
  exact Iff.rfl

/-- The blocks tile the output: every index is in the block of the point whose block coordinates are the index's
    coordinates divided by the block's extents. -/
theorem cover (i : S32x1024.Idx) : ∃ t : Fin cfg0.N, (cfg0.win 4).flush t = true ∧ i ∈ ((cfg0.win 4).blk t).view.set := by
  have hi0 : (i 0).val < 32 := (i 0).isLt
  have hi1 : (i 1).val < 1024 := (i 1).isLt
  obtain ⟨t, ht⟩ := idx_onto ⟨(i 0).val / 8, by omega⟩ ⟨(i 1).val / 128, by omega⟩
  have q0 : win0_4.index t (0 : Fin 2) = (i 0).val / 8 + 0 := congrFun ht 0
  have q1 : win0_4.index t (1 : Fin 2) = (i 1).val / 128 + 0 := congrFun ht 1
  refine ⟨t, flush0_4 t, ?_⟩
  rw [mem_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- The output array after the region: the padded score array of the arrays the region finds. -/
theorem final (c : Dev nD) :
    (dats m 0 c).arrAt 4 cfg0.N = Gpad (V m c main_arg0) (V m c main_v0) (V m c main_v1) (V m c main_v2) :=
  (dats m 0 c).arrAt_eq_of_cover 4 _ (fun t _ => flushed_eq m c t) cover

end Cert.KernelIdeal.Blocks

end
-- ==== Proof.HostSide.lean ====
/-
  The host operations around the region.

  Before the region the host pads the prototypes, the raw weights and the biases from 1000 to 1024 classes (with the
  value of the integer 0 converted to a float); the images go in as they are. So at a class below 1000 the padded
  array the region finds holds the argument's own entry. After the region the host keeps the first 1000 columns of the
  32 × 1024 output: entry `(b, c)` of the result is entry `(b, c)` of the output array.
-/
import proofs.«171508_j45268955299907_1_alg».proof.Proof.Gen.KernelIdeal.Frame
import Idealize.ShloMosaic.Lib.StableHlo.Run
import Idealize.ShloMosaic.Lib.KernelVsHost
import Idealize.ShloMosaic.Lib.Pipeline.Value
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The padding value: the integer 0 as a float. -/
def padv : (⟨S_, .f32⟩ : BufTy).Contents (Elt Ideal) := sitofp (F := Ideal) .f32 (constantI S_ 32 0#32)

/-- The prototypes as the region finds them: padded to 1024 classes. -/
theorem V_v0 (c : Dev nD) :
    (V m c main_v0 : S1024x10x768.Idx → EReal)
      = pad S1024x10x768 ![0, 0, 0] ![24, 0, 0] ![0, 0, 0] (m ((c : Thread nD τ).loc main_arg1)) padv
          pads_S1000x10x768_S1024x10x768_0240_000_000 h_S_ := by
  dsimp only [V, V0]
  simp only [hostOps0, hostOps0_1, hostOps0_2, hostOps0_3, hostOps0_4, hostOps0_5, List.flatten_cons, List.flatten_nil,
    List.append_nil, List.cons_append, List.nil_append]
  after_results
  rfl

/-- The raw weights as the region finds them: padded to 1024 classes. -/
theorem V_v1 (c : Dev nD) :
    (V m c main_v1 : S1024x10.Idx → EReal)
      = pad S1024x10 ![0, 0] ![24, 0] ![0, 0] (m ((c : Thread nD τ).loc main_arg2)) padv
          pads_S1000x10_S1024x10_0240_000 h_S_ := by
  dsimp only [V, V0]
  simp only [hostOps0, hostOps0_1, hostOps0_2, hostOps0_3, hostOps0_4, hostOps0_5, List.flatten_cons, List.flatten_nil,
    List.append_nil, List.cons_append, List.nil_append]
  after_results
  rfl

/-- The biases as the region finds them: padded to 1024 classes. -/
theorem V_v2 (c : Dev nD) :
    (V m c main_v2 : S1024.Idx → EReal)
      = pad S1024 ![0] ![24] ![0] (m ((c : Thread nD τ).loc main_arg3)) padv pads_S1000_S1024_0240 h_S_ := by
  dsimp only [V, V0]
  simp only [hostOps0, hostOps0_1, hostOps0_2, hostOps0_3, hostOps0_4, hostOps0_5, List.flatten_cons, List.flatten_nil,
    List.append_nil, List.cons_append, List.nil_append]
  after_results
  rfl

/-- A padded class below 1000 holds the argument's prototype rows. -/
theorem pad3_apply (x : S1000x10x768.Idx → EReal) (k' : Fin 1024) (k : Fin 1000) (hk : k'.val = k.val) (j : Fin 10) (d : Fin 768) :
    pad S1024x10x768 ![0, 0, 0] ![24, 0, 0] ![0, 0, 0] x padv pads_S1000x10x768_S1024x10x768_0240_000_000 h_S_ (ix3 k' j d)
      = x (ix3 k j d) :=
  pad_apply_of_inside _ _ _ x padv _ h_S_ (ix3 k' j d) (ix3 k j d) (fun a => by
    match a with
    | ⟨0, _⟩ => show k'.val = 0 + k.val * (0 + 1); omega
    | ⟨1, _⟩ => show j.val = 0 + j.val * (0 + 1); omega
    | ⟨2, _⟩ => show d.val = 0 + d.val * (0 + 1); omega)

/-- A padded class below 1000 holds the argument's raw weights. -/
theorem pad2_apply (x : S1000x10.Idx → EReal) (k' : Fin 1024) (k : Fin 1000) (hk : k'.val = k.val) (j : Fin 10) :
    pad S1024x10 ![0, 0] ![24, 0] ![0, 0] x padv pads_S1000x10_S1024x10_0240_000 h_S_ (ix2 k' j) = x (ix2 k j) :=
  pad_apply_of_inside _ _ _ x padv _ h_S_ (ix2 k' j) (ix2 k j) (fun a => by
    match a with
    | ⟨0, _⟩ => show k'.val = 0 + k.val * (0 + 1); omega
    | ⟨1, _⟩ => show j.val = 0 + j.val * (0 + 1); omega)

/-- A padded class below 1000 holds the argument's bias. -/
theorem pad1_apply (x : S1000.Idx → EReal) (k' : Fin 1024) (k : Fin 1000) (hk : k'.val = k.val) :
    pad S1024 ![0] ![24] ![0] x padv pads_S1000_S1024_0240 h_S_ (ix1 k') = x (ix1 k) :=
  pad_apply_of_inside _ _ _ x padv _ h_S_ (ix1 k') (ix1 k) (fun a => by
    match a with
    | ⟨0, _⟩ => show k'.val = 0 + k.val * (0 + 1); omega)

/-- The result after the region: the first 1000 columns of the output array. -/
theorem tail_eq (c : Dev nD) :
    (Pipeline.afterTail₀ cfgs (dats m) 0 (V0 m) [hostOps1] c main_v4 : S32x1000.Idx → EReal)
      = extractStridedSlice S32x1000 ![0, 0] ((dats m 0 c).arrAt 4 cfg0.N) slices_S32x1024_S32x1000_0_0 := by
  unfold Pipeline.afterTail₀
  show StableHlo.after hostOps1 _ (Proc.devRef .tc main_v4) = _
  after_results
  exact congrArg (fun A => extractStridedSlice S32x1000 ![0, 0] A slices_S32x1024_S32x1000_0_0)
    (Pipeline.withArrays_arr spec0 launch0.win.arr_inj c _ _ 4)

/-- The slice at `(b, k)` is the output array at `(b, k)`. -/
theorem slice_apply (A : S32x1024.Idx → EReal) (b : Fin 32) (k : Fin 1000) (k' : Fin 1024) (hk : k'.val = k.val) :
    extractStridedSlice S32x1000 ![0, 0] A slices_S32x1024_S32x1000_0_0 (ix2 b k) = A (ix2 b k') :=
  extractStridedSlice_apply _ A _ (ix2 b k) (ix2 b k') (fun a => by
    match a with
    | ⟨0, _⟩ => show b.val = 0 + b.val; omega
    | ⟨1, _⟩ => show k'.val = 0 + k.val; omega)

end Cert.KernelIdeal.HostSide

end
-- ==== Proof.SpecG.lean ====
/-
  The whole result: entry `(b, c)` of the 32 × 1000 array of scores is the score of class `c` (its 10 prototype rows,
  its 10 raw weights, its bias) for image `b` (its 196 feature rows).
-/
import Idealize.ShloMosaic.Lib.ValueIdx
import proofs.«171508_j45268955299907_1_alg».proof.Proof.Spec

noncomputable section

namespace Cert.Head

open Idealize.ShloMosaic Idealize.ShloMosaic.ValueIdx

/-- The scores of every image against every class. -/
def G (X : (⟨3, ![32, 196, 768]⟩ : Shape).Idx → EReal) (Pr : (⟨3, ![1000, 10, 768]⟩ : Shape).Idx → EReal)
    (W : (⟨2, ![1000, 10]⟩ : Shape).Idx → EReal) (Bi : (⟨1, ![1000]⟩ : Shape).Idx → EReal) :
    (⟨2, ![32, 1000]⟩ : Shape).Idx → EReal :=
  fun i => score (fun l d => X (ix3 (i 0) l d)) (fun j d => Pr (ix3 (i 1) j d)) (fun j => W (ix2 (i 1) j)) (Bi (ix1 (i 1)))

end Cert.Head

end
-- ==== Proof.KernelValue.lean ====
/-
  The idealized kernel's run, read: its result is the array of scores of the arguments.

  The region leaves the 32 × 1024 output at the scores of every image against every padded class; the host keeps the
  first 1000 columns; and below class 1000 the padded prototypes, weights and biases are the arguments' own. So entry
  `(b, c)` of the result is the score of class `c` for image `b`, computed from the argument arrays.
-/
import proofs.«171508_j45268955299907_1_alg».proof.Proof.Gen.KernelIdeal.Frame
import proofs.«171508_j45268955299907_1_alg».proof.Proof.Blocks
import proofs.«171508_j45268955299907_1_alg».proof.Proof.HostSide
import proofs.«171508_j45268955299907_1_alg».proof.Proof.SpecG

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL.Sem
open Cert.KernelIdeal.Blocks Cert.KernelIdeal.HostSide

variable (m : (ℓ : Loc nD τ sig) → Buf (Elt Ideal) ℓ) (ρ : Dev nD → PrngReg)

/-- The padded scores at a class below 1000 are the scores from the unpadded arrays. -/
theorem Gpad_eq_G (X : S32x196x768.Idx → EReal) (Pp : S1024x10x768.Idx → EReal) (Wp : S1024x10.Idx → EReal)
    (Bp : S1024.Idx → EReal) (Pr : S1000x10x768.Idx → EReal) (W : S1000x10.Idx → EReal) (Bi : S1000.Idx → EReal)
    (b : Fin 32) (k : Fin 1000) (k' : Fin 1024)
    (hP : ∀ j d, Pp (ix3 k' j d) = Pr (ix3 k j d)) (hW : ∀ j, Wp (ix2 k' j) = W (ix2 k j)) (hB : Bp (ix1 k') = Bi (ix1 k)) :
    Gpad X Pp Wp Bp (ix2 b k') = Cert.Head.G X Pr W Bi (ix2 b k) := by
  show Cert.Head.score (fun l d => X (ix3 b l d)) (fun j d => Pp (ix3 k' j d)) (fun j => Wp (ix2 k' j)) (Bp (ix1 k'))
    = Cert.Head.score (fun l d => X (ix3 b l d)) (fun j d => Pr (ix3 k j d)) (fun j => W (ix2 k j)) (Bi (ix1 k))
  have eP : (fun (j : Fin 10) (d : Fin 768) => Pp (ix3 k' j d)) = fun j d => Pr (ix3 k j d) :=
    funext fun j => funext fun d => hP j d
  have eW : (fun (j : Fin 10) => Wp (ix2 k' j)) = fun j => W (ix2 k j) := funext hW
  rw [eP, eW, hB]

/-- The result buffer after the run. -/
theorem result_eq (c : Dev nD) :
    (Pipeline.afterTail₀ cfgs (dats m) 0 (V0 m) [hostOps1] c main_v4 : S32x1000.Idx → EReal)
      = Cert.Head.G (m ((c : Thread nD τ).loc main_arg0)) (m ((c : Thread nD τ).loc main_arg1))
          (m ((c : Thread nD τ).loc main_arg2)) (m ((c : Thread nD τ).loc main_arg3)) := by
  rw [tail_eq, final]
  funext i
  obtain ⟨b, k, rfl⟩ : ∃ (b : Fin 32) (k : Fin 1000), i = ix2 b k := ⟨i 0, i 1, eq_ix2 i⟩
  have hk : k.val < 1024 := by have := k.isLt; omega
  rw [slice_apply _ b k ⟨k.val, hk⟩ rfl, V_main_arg0 m c]
  exact Gpad_eq_G _ _ _ _ _ _ _ b k ⟨k.val, hk⟩
    (fun j d => by rw [V_v0]; exact pad3_apply _ ⟨k.val, hk⟩ k rfl j d)
    (fun j => by rw [V_v1]; exact pad2_apply _ ⟨k.val, hk⟩ k rfl j)
    (by rw [V_v2]; exact pad1_apply _ ⟨k.val, hk⟩ k rfl)

/-- The idealized kernel runs, ends with the scores of its arguments in its result, and leaves its arguments as they were. -/
theorem run : θ_run defs (onTc (τ := τ) (main (F := Ideal))) ⟨m, fun _ => 0, ρ⟩ fun r => ∀ c : Dev nD,
      r.2.mem ((c.tc : Thread nD τ).loc main_v4)
        = Cert.Head.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefIs.lean ====
/-
  The reference's result, entry by entry, is the class's score.

  The reference scales both arrays row by row (sum of squares along the last axis, square root, the floor `ε`, the
  division), contracts them over the feature axis into a 32 × 196 × 1000 × 10 array of similarities, takes the
  maximum over the 196 positions, multiplies by the softplus of the raw weights, sums over the 10 prototypes and adds
  the bias. Read at image `b` and class `c` this is the score of `c`'s prototype rows, weights and bias for image
  `b`'s feature rows. Its zero starting values are absorbed (`0 + s = s`), and its softplus writes `−|r − 0|` where
  the score writes `0 − |r − 0|`.
-/
import proofs.«171508_j45268955299907_1_alg».proof.Proof.Gen.ReferenceIdeal.Read
import proofs.«171508_j45268955299907_1_alg».proof.Proof.LibColMax
import proofs.«171508_j45268955299907_1_alg».proof.Proof.Spec
import proofs.«171508_j45268955299907_1_alg».proof.Proof.SpecG

noncomputable section

open scoped BigOperators

namespace Cert.ReferenceIdeal.RefIs

open Cert.ReferenceIdeal Cert.ReferenceIdeal.Gen Cert.ReferenceIdeal.Read
open Idealize.ShloMosaic Idealize.ShloMosaic.ValueIdx

/-- The scaled feature rows. -/
theorem z_apply (x0 : (⟨S32x196x768, .f32⟩ : BufTy).Contents (Elt Ideal)) (b : Fin 32) (l : Fin 196) (d : Fin 768) :
    val_main_v4 (F := Ideal) x0 (ix3 b l d) = Cert.Head.scaled (fun d' => x0 (ix3 b l d')) d := by
  have e3 : idx_main_v3 (ix3 b l d) = ix3 b l (0 : Fin 1) := funext fun a => Fin.ext (by
    match a with | ⟨0, _⟩ => rfl | ⟨1, _⟩ => rfl | ⟨2, _⟩ => rfl)
  have e2 : idx_main_call0_v2 (ix3 b l (0 : Fin 1)) = ix2 b l := funext fun a => Fin.ext (by
    match a with | ⟨0, _⟩ => rfl | ⟨1, _⟩ => rfl)
  have e1 : ∀ k : Fin 768, idx_main_call0_v1 (ix2 b l) k = ix3 b l k := fun k => funext fun a => Fin.ext (by
    match a with | ⟨0, _⟩ => rfl | ⟨1, _⟩ => rfl | ⟨2, _⟩ => rfl)
  rw [val_main_v4_apply, val_main_v3_apply, e3, val_main_v2_apply, val_main_v0_apply, val_main_call0_v2_apply, e2,
    val_main_call0_v1_apply, val_main_v1_apply]
  simp only [e1, val_main_call0_v0_apply, val_main_call0_cst_apply, val_main_cst_apply, Ideal.ofBits_def,
    Ideal.ofBits_zero_f32, zero_add, Cert.Head.scaled, Cert.Head.len, Cert.Head.eps, Ideal.hostDivf_def,
    Ideal.maximumf_def, Ideal.hostUnary_sqrt_def, Ideal.mulf_def]

/-- The scaled prototype rows. -/
theorem p_apply (x1 : (⟨S1000x10x768, .f32⟩ : BufTy).Contents (Elt Ideal)) (c : Fin 1000) (j : Fin 10) (d : Fin 768) :
    val_main_v9 (F := Ideal) x1 (ix3 c j d) = Cert.Head.scaled (fun d' => x1 (ix3 c j d')) d := by
  have e3 : idx_main_v8 (ix3 c j d) = ix3 c j (0 : Fin 1) := funext fun a => Fin.ext (by
    match a with | ⟨0, _⟩ => rfl | ⟨1, _⟩ => rfl | ⟨2, _⟩ => rfl)
  have e2 : idx_main_call1_v2 (ix3 c j (0 : Fin 1)) = ix2 c j := funext fun a => Fin.ext (by
    match a with | ⟨0, _⟩ => rfl | ⟨1, _⟩ => rfl)
  have e1 : ∀ k : Fin 768, idx_main_call1_v1 (ix2 c j) k = ix3 c j k := fun k => funext fun a => Fin.ext (by
    match a with | ⟨0, _⟩ => rfl | ⟨1, _⟩ => rfl | ⟨2, _⟩ => rfl)
  rw [val_main_v9_apply, val_main_v8_apply, e3, val_main_v7_apply, val_main_v5_apply, val_main_call1_v2_apply, e2,
    val_main_call1_v1_apply, val_main_v6_apply]
  simp only [e1, val_main_call1_v0_apply, val_main_call1_cst_apply, val_main_cst_0_apply, Ideal.ofBits_def,
    Ideal.ofBits_zero_f32, zero_add, Cert.Head.scaled, Cert.Head.len, Cert.Head.eps, Ideal.hostDivf_def,
    Ideal.maximumf_def, Ideal.hostUnary_sqrt_def, Ideal.mulf_def]

/-- The similarities. -/
theorem sim_apply (x0 : (⟨S32x196x768, .f32⟩ : BufTy).Contents (Elt Ideal)) (x1 : (⟨S1000x10x768, .f32⟩ : BufTy).Contents (Elt Ideal))
    (b : Fin 32) (l : Fin 196) (c : Fin 1000) (j : Fin 10) :
    val_main_v10 (F := Ideal) x0 x1 (ix4 b l c j) = Cert.Head.sim (fun d => x0 (ix3 b l d)) (fun d => x1 (ix3 c j d)) := by
  rw [val_main_v10_apply]
  unfold Cert.Head.sim
  refine Finset.sum_congr rfl fun k _ => ?_
  have el : lidx_main_v10 (ix4 b l c j) k = ix3 b l k := funext fun a => Fin.ext (by
    match a with | ⟨0, _⟩ => rfl | ⟨1, _⟩ => rfl | ⟨2, _⟩ => rfl)
  have er : ridx_main_v10 (ix4 b l c j) k = ix3 c j k := funext fun a => Fin.ext (by
    match a with | ⟨0, _⟩ => rfl | ⟨1, _⟩ => rfl | ⟨2, _⟩ => rfl)
  rw [el, er, z_apply, p_apply]

/-- The pooled similarities: the maximum over the 196 positions. -/
theorem pooled_apply (x0 : (⟨S32x196x768, .f32⟩ : BufTy).Contents (Elt Ideal)) (x1 : (⟨S1000x10x768, .f32⟩ : BufTy).Contents (Elt Ideal))
    (b : Fin 32) (c : Fin 1000) (j : Fin 10) :
    val_main_v11 (F := Ideal) x0 x1 (ix3 b c j) = Cert.Head.pooled (fun l d => x0 (ix3 b l d)) (fun d => x1 (ix3 c j d)) := by
  unfold val_main_v11 Cert.Head.pooled
  refine (Cert.Lib.ColMax.hostFoldSecond_apply (FloatOps.maximumf (F := Ideal) (φ := .f32)) _ _
    reducesTo_S32x196x1000x10_S32x1000x10_d1 (by decide) h_S_ b c j).trans ?_
  refine congrArg (fun f => Finset.fold max (Ideal.ofBits .f32 0xFF800000#32) f (Finset.univ : Finset (Fin 196)))
    (funext fun l => ?_)
  exact sim_apply x0 x1 b l c j

/-- The softplus weights, repeated over the images. -/
theorem w_apply (x2 : (⟨S1000x10, .f32⟩ : BufTy).Contents (Elt Ideal)) (b : Fin 32) (c : Fin 1000) (j : Fin 10) :
    val_main_v14 (F := Ideal) x2 (ix3 b c j) = Cert.Head.softplus (x2 (ix2 c j)) := by
  have e14 : idx_main_v14 (ix3 b c j) = ix3 (0 : Fin 1) c j := funext fun a => Fin.ext (by
    match a with | ⟨0, _⟩ => rfl | ⟨1, _⟩ => rfl | ⟨2, _⟩ => rfl)
  have e13 : idx_main_v13 (ix3 (0 : Fin 1) c j) = ix2 c j := funext fun a => Fin.ext (by
    match a with | ⟨0, _⟩ => rfl | ⟨1, _⟩ => rfl)
  rw [val_main_v14_apply, e14, val_main_v13_apply, e13, ← Cert.Head.softplus_neg]
  rw [val_main_v12_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply]
  rfl

/-- The reference's result at image `b`, class `c`. -/
theorem ref_apply (x0 : (⟨S32x196x768, .f32⟩ : BufTy).Contents (Elt Ideal)) (x1 : (⟨S1000x10x768, .f32⟩ : BufTy).Contents (Elt Ideal))
    (x2 : (⟨S1000x10, .f32⟩ : BufTy).Contents (Elt Ideal)) (x3 : (⟨S1000, .f32⟩ : BufTy).Contents (Elt Ideal))
    (b : Fin 32) (c : Fin 1000) :
    val_main_v19 (F := Ideal) x0 x1 x2 x3 (ix2 b c)
      = Cert.Head.score (fun l d => x0 (ix3 b l d)) (fun j d => x1 (ix3 c j d)) (fun j => x2 (ix2 c j)) (x3 (ix1 c)) := by
  have e16 : ∀ k : Fin 10, idx_main_v16 (ix2 b c) k = ix3 b c k := fun k => funext fun a => Fin.ext (by
    match a with | ⟨0, _⟩ => rfl | ⟨1, _⟩ => rfl | ⟨2, _⟩ => rfl)
  have e18 : idx_main_v18 (ix2 b c) = ix2 (0 : Fin 1) c := funext fun a => Fin.ext (by
    match a with | ⟨0, _⟩ => rfl | ⟨1, _⟩ => rfl)
  have e17 : idx_main_v17 (ix2 (0 : Fin 1) c) = ix1 c := funext fun a => Fin.ext (by
    match a with | ⟨0, _⟩ => rfl)
  rw [val_main_v19_apply, val_main_v16_apply, val_main_v18_apply, e18, val_main_v17_apply, e17]
  rw [Ideal.addf_def, val_main_cst_2_apply, Ideal.ofBits_def, Ideal.ofBits_zero_f32, zero_add]
  unfold Cert.Head.score
  refine congrArg (· + x3 (ix1 c)) (Finset.sum_congr rfl fun k _ => ?_)
  rw [e16, val_main_v15_apply, Ideal.mulf_def, pooled_apply, w_apply]

/-- The reference's result is the array of scores of its arguments. -/
theorem ref_eq_G (x0 : (⟨S32x196x768, .f32⟩ : BufTy).Contents (Elt Ideal)) (x1 : (⟨S1000x10x768, .f32⟩ : BufTy).Contents (Elt Ideal))
    (x2 : (⟨S1000x10, .f32⟩ : BufTy).Contents (Elt Ideal)) (x3 : (⟨S1000, .f32⟩ : BufTy).Contents (Elt Ideal)) :
    val_main_v19 (F := Ideal) x0 x1 x2 x3 = Cert.Head.G x0 x1 x2 x3 := by
  funext i
  obtain ⟨b, c, rfl⟩ : ∃ (b : Fin 32) (c : Fin 1000), i = ix2 b c := ⟨i 0, i 1, eq_ix2 i⟩
  exact ref_apply x0 x1 x2 x3 b c

end Cert.ReferenceIdeal.RefIs

end
-- ==== Proof.lean ====
/-
  The certificate of the prototypical head: a tiled kernel against its plain reference.

  Both programs scale every feature row and every prototype row to length one (dividing by the row's length, or by the
  word of 1e-12 if that is greater), take the inner products of the scaled rows, pool each (image, prototype) pair by
  the maximum over the image's 196 positions, weight the pooled similarities by the softplus of the raw weights, sum
  over a class's 10 prototypes and add the class's bias. The kernel pads the 1000 classes to 1024, works on blocks of
  8 images by 128 classes over a 4 × 8 grid, and the host cuts the padding off again; the reference does it all at once.

  On the extended reals the two results are equal entry by entry: both are the same tree of operations of the argument
  entries (Spec), the kernel's read through its blocks (RowFn, Parts, KernelBlock, Blocks, HostSide, KernelValue) and
  the reference's read operation by operation (RefIs). No rearrangement that needs real entries is used: a change of
  float format is the identity, a matrix product into zero and the host's contraction are the same sums, and the two
  spellings of the softplus differ by `0 − y = −y`. The frames are the generated ones; the reference's is its generated
  run with the result dropped; the ideal pass rewrote nothing, so there is nothing to preserve.
-/
import proofs.«171508_j45268955299907_1_alg».proof.Defs
import proofs.«171508_j45268955299907_1_alg».proof.Proof.Gen.Kernel
import proofs.«171508_j45268955299907_1_alg».proof.Proof.Gen.Kernel.Skeleton
import proofs.«171508_j45268955299907_1_alg».proof.Proof.Gen.Kernel.Launch
import proofs.«171508_j45268955299907_1_alg».proof.Proof.Gen.Kernel.Points
import proofs.«171508_j45268955299907_1_alg».proof.Proof.Gen.Kernel.Frame
import proofs.«171508_j45268955299907_1_alg».proof.Proof.Gen.KernelIdeal
import proofs.«171508_j45268955299907_1_alg».proof.Proof.Gen.KernelIdeal.Skeleton
import proofs.«171508_j45268955299907_1_alg».proof.Proof.Gen.KernelIdeal.Launch
import proofs.«171508_j45268955299907_1_alg».proof.Proof.Gen.KernelIdeal.Points
import proofs.«171508_j45268955299907_1_alg».proof.Proof.Gen.KernelIdeal.Frame
import proofs.«171508_j45268955299907_1_alg».proof.Proof.Gen.ReferenceIdeal
import proofs.«171508_j45268955299907_1_alg».proof.Proof.Gen.ReferenceIdeal.Run
import proofs.«171508_j45268955299907_1_alg».proof.Proof.Gen.ReferenceIdeal.Read
import proofs.«171508_j45268955299907_1_alg».proof.Proof.Gen.Pre_finite_inputs
import proofs.«171508_j45268955299907_1_alg».proof.Proof.KernelValue
import proofs.«171508_j45268955299907_1_alg».proof.Proof.RefIs
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the array of scores of the arguments. -/
theorem algebraic : Cert.algebraic_KernelIdeal_ReferenceIdeal := by
  intro m ρ m' ρ' _ hagree
  refine ⟨fun c => Cert.Head.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefIs.ref_eq_G, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
